-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x2048x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8x2048x256 : Shape := ⟨3, ![8, 2048, 256]⟩
abbrev S256x256 : Shape := ⟨2, ![256, 256]⟩
abbrev S256 : Shape := ⟨1, ![256]⟩
abbrev S1x256 : Shape := ⟨2, ![1, 256]⟩
abbrev S8x2x2048x256 : Shape := ⟨4, ![8, 2, 2048, 256]⟩
abbrev S8x2048x2048 : Shape := ⟨3, ![8, 2048, 2048]⟩
abbrev S1x2048x256 : Shape := ⟨3, ![1, 2048, 256]⟩
abbrev S1x2x2048x256 : Shape := ⟨4, ![1, 2, 2048, 256]⟩
abbrev S1x2048x512 : Shape := ⟨3, ![1, 2048, 512]⟩
abbrev S2048x256 : Shape := ⟨2, ![2048, 256]⟩
abbrev S1x1x2048x256 : Shape := ⟨4, ![1, 1, 2048, 256]⟩
abbrev S1x512x256 : Shape := ⟨3, ![1, 512, 256]⟩
abbrev S512x256 : Shape := ⟨2, ![512, 256]⟩
abbrev S256x512 : Shape := ⟨2, ![256, 512]⟩
abbrev S2048x512 : Shape := ⟨2, ![2048, 512]⟩
abbrev S512 : Shape := ⟨1, ![512]⟩
abbrev S1x512 : Shape := ⟨2, ![1, 512]⟩
abbrev S8x4096x256 : Shape := ⟨3, ![8, 4096, 256]⟩

abbrev nBuf : Space → Nat
  | .hbm => 13
  | .vmem => 13
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S8x2x2048x256, .f32⟩
  | .hbm, ⟨11, _⟩ => ⟨S8x2048x2048, .f32⟩
  | .hbm, ⟨12, _⟩ => ⟨S8x4096x256, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x2x2048x256, .f32⟩
  | .local _ .vmem, ⟨9, _⟩ => ⟨S1x2x2048x256, .f32⟩
  | .local _ .vmem, ⟨10, _⟩ => ⟨S1x2048x512, .f32⟩
  | .local _ .vmem, ⟨11, _⟩ => ⟨S1x2048x512, .f32⟩
  | .local _ .vmem, ⟨12, _⟩ => ⟨S2048x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S1x2x2048x256_S1x1x2048x256_0_0_0_0 : ∀ a, (![0, 0, 0, 0] : Fin 4 → Nat) a + S1x1x2048x256.size a ≤ S1x2x2048x256.size a
  h_S1x1x2048x256 : 0 < S1x1x2048x256.numel
  shapeCasts_S1x1x2048x256_S2048x256 : S1x1x2048x256.ShapeCasts S2048x256
  shapeCasts_S2048x256_S1x1x2048x256 : S2048x256.ShapeCasts S1x1x2048x256
  inb_S1x2x2048x256_S1x1x2048x256_0_1_0_0 : ∀ a, (![0, 1, 0, 0] : Fin 4 → Nat) a + S1x1x2048x256.size a ≤ S1x2x2048x256.size a
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  h_S1x512x256 : 0 < S1x512x256.numel
  shapeCasts_S1x512x256_S512x256 : S1x512x256.ShapeCasts S512x256
  broadcasts_S1x256_S512x256 : S1x256.Broadcasts S512x256
  transposes_S512x256_p1_0_S256x512 : S512x256.Transposes [1, 0] S256x512
  reduces_S2048x512_S512 : S2048x512.Reduces [0] S512
  shapeCasts_S512_S1x512 : S512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  shapeCasts_S8x2x2048x256_S8x4096x256 : S8x2x2048x256.ShapeCasts S8x4096x256
  dot_S2048x256_S256x256_S2048x256_1_0_0_1_n_n_wf : DotDims.WF S2048x256 S256x256 S2048x256 [1] [0] [0] [1] [] []
  dot_S512x256_S256x256_S512x256_1_0_0_1_n_n_wf : DotDims.WF S512x256 S256x256 S512x256 [1] [0] [0] [1] [] []
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2x2048x256.size a ≤ S8x2x2048x256.size a
  hwx0_7 : ∀ i : grid0.Coords, EltTy.bits .f32 = 32 ∨ (Rect.block (s := S8x2x2048x256) S1x2x2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x512.size a ≤ S8x2048x2048.size a
  hwx0_8 : ∀ i : grid0.Coords, EltTy.bits .f32 = 32 ∨ (Rect.block (s := S8x2048x2048) S1x2048x512.size (cc0_transform_8 i) (hinb0_8 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1x2x2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1x2048x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S8x2048x2048 : Shape := ⟨3, ![8, 2048, 2048]⟩
abbrev S8x2048 : Shape := ⟨2, ![8, 2048]⟩
abbrev S8x1x2048 : Shape := ⟨3, ![8, 1, 2048]⟩
abbrev S8x4096x256 : Shape := ⟨3, ![8, 4096, 256]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8x2048x256, .f32⟩
  | .hbm, ⟨8, _⟩ => ⟨S1x1x256, .f32⟩
  | .hbm, ⟨9, _⟩ => ⟨S8x2048x256, .f32⟩
  | .hbm, ⟨10, _⟩ => ⟨S8x2048x256, .f32⟩
  | .hbm, ⟨11, _⟩ => ⟨S8x2048x256, .f32⟩
  | .hbm, ⟨12, _⟩ => ⟨S1x1x256, .f32⟩
  | .hbm, ⟨13, _⟩ => ⟨S8x2048x256, .f32⟩
  | .hbm, ⟨14, _⟩ => ⟨S8x2048x256, .f32⟩
  | .hbm, ⟨15, _⟩ => ⟨S8x2048x256, .f32⟩
  | .hbm, ⟨16, _⟩ => ⟨S1x1x256, .f32⟩
  | .hbm, ⟨17, _⟩ => ⟨S8x2048x256, .f32⟩
  | .hbm, ⟨18, _⟩ => ⟨S8x2048x256, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x1x2048, .f32⟩
  | .hbm, ⟨37, _⟩ => ⟨S8x2048x2048, .f32⟩
  | .hbm, ⟨38, _⟩ => ⟨S8x2048x2048, .f32⟩
  | .hbm, ⟨39, _⟩ => ⟨S8x2048x256, .f32⟩
  | .hbm, ⟨40, _⟩ => ⟨S8x4096x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  concatenates_S8x2048x256_S8x2048x256_S8x4096x256_d1 : Shape.Concatenates [S8x2048x256, S8x2048x256] S8x4096x256 1
  dot_S8x2048x256_S256x256_S8x2048x256_2_1_01_0_n_n_wf : DotDims.WF S8x2048x256 S256x256 S8x2048x256 [2] [1] [0, 1] [0] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.AttnSpec.lean ====
/-
  The attention encoder as functions of its argument arrays, over the extended reals, index by index.

  With x : [8, 2048, 256], three weight matrices W : [256, 256] (rows are output features) and three biases b : [256]:
    proj x W b (n, l, o)  = (∑ d, x (n, l, d) · W (o, d)) + b o                     -- a linear layer
    score (n, q, k)       = (∑ d, Q (n, q, d) · K (n, k, d)) · (1/16)              -- 1/16 = 1/√256
    colMax (n, k)         = max over q of score (n, q, k)   (a fold of max from -∞)
    expo (n, q, k)        = exp (score (n, q, k) - colMax (n, k))
    colSum (n, k)         = ∑ q, expo (n, q, k)
    attn (n, q, k)        = expo (n, q, k) / colSum (n, k)                          -- a softmax over the QUERY axis
    ctx (n, q, d)         = ∑ k, attn (n, q, k) · V (n, k, d)
  The results: `attnOut` = attn as an [8, 2048, 2048] array; `stacked` = Q over ctx as an [8, 2, 2048, 256] array,
  and `joined` = the same rows laid out as [8, 4096, 256] (row r < 2048 is Q's row r, row r ≥ 2048 is ctx's row r - 2048).
-/
import Idealize.ShloMosaic.PureOps.Ideal
import Idealize.ShloMosaic.Lib.ValueIdx

noncomputable section

namespace Cert.AttnSpec

open Idealize.ShloMosaic Idealize.ShloMosaic.ValueIdx

/-- The three kinds of argument array. -/
abbrev Act := (⟨3, ![8, 2048, 256]⟩ : Shape).Idx → EReal
abbrev Mat := (⟨2, ![256, 256]⟩ : Shape).Idx → EReal
abbrev Bias := (⟨1, ![256]⟩ : Shape).Idx → EReal

/-- One linear layer at batch `n`, row `l`, output feature `o`. -/
def proj (x : Act) (w : Mat) (b : Bias) (n : Fin 8) (l : Fin 2048) (o : Fin 256) : EReal :=
  (∑ d : Fin 256, x (ix3 n l d) * w (ix2 o d)) + b (ix1 o)

section
variable (x : Act) (wq : Mat) (bq : Bias) (wk : Mat) (bk : Bias)

/-- The scaled score of query row `q` against key row `k`. -/
def score (n : Fin 8) (q k : Fin 2048) : EReal :=
  (∑ d : Fin 256, proj x wq bq n q d * proj x wk bk n k d) * ((1 / 16 : ℝ) : EReal)

/-- The largest score in key column `k`, over all query rows. -/
def colMax (n : Fin 8) (k : Fin 2048) : EReal :=
  (Finset.univ : Finset (Fin 2048)).fold max (Ideal.ofBits .f32 0xFF800000#32) (fun q => score x wq bq wk bk n q k)

/-- The shifted exponential. -/
def expo (n : Fin 8) (q k : Fin 2048) : EReal :=
  Ideal.exp (score x wq bq wk bk n q k - colMax x wq bq wk bk n k)

/-- The column's normalizer. -/
def colSum (n : Fin 8) (k : Fin 2048) : EReal := ∑ q : Fin 2048, expo x wq bq wk bk n q k

/-- The attention weight: a softmax over the query axis. -/
def attn (n : Fin 8) (q k : Fin 2048) : EReal :=
  Ideal.div (expo x wq bq wk bk n q k) (colSum x wq bq wk bk n k)

variable (wv : Mat) (bv : Bias)

/-- The context row. -/
def ctx (n : Fin 8) (q : Fin 2048) (d : Fin 256) : EReal :=
  ∑ k : Fin 2048, attn x wq bq wk bk n q k * proj x wv bv n k d

/-- The attention weights as an array. -/
def attnOut : (⟨3, ![8, 2048, 2048]⟩ : Shape).Idx → EReal :=
  fun i => attn x wq bq wk bk (i 0) (i 1) (i 2)

/-- Q stacked over the context, as [8, 2, 2048, 256]. -/
def stacked : (⟨4, ![8, 2, 2048, 256]⟩ : Shape).Idx → EReal :=
  fun i => if (i 1).val = 0 then proj x wq bq (i 0) (i 2) (i 3) else ctx x wq bq wk bk wv bv (i 0) (i 2) (i 3)

/-- Q's rows followed by the context's rows, as [8, 4096, 256]. -/
def joined : (⟨3, ![8, 4096, 256]⟩ : Shape).Idx → EReal :=
  fun i => if h : (i 1).val < 2048 then proj x wq bq (i 0) ⟨(i 1).val, h⟩ (i 2)
    else ctx x wq bq wk bk wv bv (i 0) ⟨(i 1).val - 2048, by have h4 : (i 1).val < 4096 := (i 1).isLt; show _ < 2048; omega⟩ (i 2)

end

end Cert.AttnSpec

end
-- ==== Proof.KernelConsts.lean ====
/-
  The one float constant the kernel body spells whose value the proof needs: the score scale 0x3D800000, which as an
  extended real is 1/16 = 1/√256.
-/
import Idealize.ShloMosaic.PureOps.Ideal

noncomputable section

namespace Cert.KernelConsts

open Idealize.ShloMosaic

/-- The binary32 pattern 0x3D800000 (sign 0, exponent field 123, fraction 0) denotes 2⁻⁴ = 1/16. -/
theorem scale_eq : Ideal.ofBits .f32 0x3D800000#32 = ((1 / 16 : ℝ) : EReal) := by
  simp [Ideal.ofBits, Ideal.ieee, -EReal.coe_mul]; norm_num

end Cert.KernelConsts

end
-- ==== Proof.RefConsts.lean ====
/-
  The reference's scale. It divides the raw scores by 256 ^ (1/2), both numbers given as 32-bit float words.
  Read as extended reals the words are 256 and 1/2, the power is the real square root 16, and dividing an extended
  real by the nonzero real 16 is multiplying it by 1/16 (at the infinities too).
-/
import proofs.«125716_j44633300140321_2_alg».proof.Proof.KernelConsts
import Idealize.ShloMosaic.PureOps.Ideal

noncomputable section

namespace Cert.ReferenceIdeal.RefValue

open Idealize.ShloMosaic

/-- The word 0x43800000 denotes 256: sign 0, exponent 135 = 127 + 8, significand 0. -/
theorem ofBits_256 : Ideal.ofBits .f32 0x43800000#32 = ((256 : ℝ) : EReal) := by
  simp [Ideal.ofBits, Ideal.ieee, -EReal.coe_mul]; norm_num

/-- The word 0x3F000000 denotes 1/2: sign 0, exponent 126 = 127 - 1, significand 0. -/
theorem ofBits_half : Ideal.ofBits .f32 0x3F000000#32 = ((1 / 2 : ℝ) : EReal) := by
  simp [Ideal.ofBits, Ideal.ieee, -EReal.coe_mul]; norm_num

/-- 256 ^ (1/2) = (16 ^ 2) ^ (1/2) = 16. -/
theorem rpow_256_half : Real.rpow 256 (1 / 2) = 16 := by
  rw [show (256 : ℝ) = 16 ^ (2 : ℝ) by norm_num, Real.rpow_eq_pow, ← Real.rpow_mul (by norm_num)]; norm_num

/-- The scale the reference computes is 16. -/
theorem scale_eq :
    Ideal.pow (Ideal.ofBits .f32 0x43800000#32) (Ideal.ofBits .f32 0x3F000000#32) = ((16 : ℝ) : EReal) := by
  rw [ofBits_256, ofBits_half, Ideal.pow_coe_coe, rpow_256_half]

/-- Dividing by the scale is multiplying by 1/16. -/
theorem div_scale (x : EReal) :
    Ideal.div x (Ideal.pow (Ideal.ofBits .f32 0x43800000#32) (Ideal.ofBits .f32 0x3F000000#32))
      = x * ((1 / 16 : ℝ) : EReal) := by
  rw [scale_eq, Ideal.div_coe (by norm_num)]

end Cert.ReferenceIdeal.RefValue

end
-- ==== Proof.RefStages.lean ====
/-
  The reference program read stage by stage at one index, over the extended reals.

  Each operation of the reference is a function of the seven argument arrays; here each of the stages that carry the
  mathematics is shown, at explicit coordinates, to be the corresponding function of the specification:
    Q, K, V (n, l, o)   = (∑ d, x (n, l, d) · W (o, d)) + b o
    score (n, q, k)     = (∑ d, Q (n, q, d) · K (n, k, d)) · (1/16)       -- the reference divides by 256 ^ (1/2) = 16
    colMax (n, k)       = the fold of max from -∞ over q of score (n, q, k)  -- a further max with -∞ changes nothing
    expo (n, q, k)      = exp (score (n, q, k) - colMax (n, k))
    colSum (n, k)       = 0 + ∑ q, expo (n, q, k)
    attn (n, q, k)      = expo (n, q, k) / colSum (n, k)
    ctx (n, q, d)       = ∑ k, attn (n, q, k) · V (n, k, d)
  Every step is the same three moves: read the operation at the index, identify the operand indices it names with
  coordinate triples or pairs (a broadcast keeps the coordinates of the axes it copies along, a contraction puts the
  summation variable on the contracted axis of each operand), and substitute the earlier stages.
-/
import proofs.«125716_j44633300140321_2_alg».proof.Proof.RefRead
import proofs.«125716_j44633300140321_2_alg».proof.Proof.AttnSpec
import proofs.«125716_j44633300140321_2_alg».proof.Proof.RefConsts
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.ReadP

/-- The three kinds of argument array — activations [8, 2048, 256], a weight matrix [256, 256], a bias [256] — as the reference program types them. -/
abbrev XTy := (⟨S8x2048x256, .f32⟩ : BufTy).Contents (Elt Ideal)
abbrev MTy := (⟨S256x256, .f32⟩ : BufTy).Contents (Elt Ideal)
abbrev BTy := (⟨S256, .f32⟩ : BufTy).Contents (Elt Ideal)

/-! ## The linear layers

The product x · Wᵀ at (n, l, o) sums x (n, l, d) · W (o, d) over d; the bias is broadcast first to [1, 1, 256] and then
to [8, 2048, 256], and both broadcasts keep only the last coordinate. -/

/-- Q at (n, l, o). -/
theorem proj_eq (x : XTy) (w : MTy) (b : BTy) (n : Fin 8) (l : Fin 2048) (o : Fin 256) :
    val_main_v3 (F := Ideal) x w b (ix3 n l o) = Cert.AttnSpec.proj x w b n l o := by
  rw [val_main_v3_apply, val_main_v0_apply, val_main_v2_apply, val_main_v1_apply]
  have hl : ∀ d : Fin 256, lidx_main_v0 (ix3 n l o) d = ix3 n l d := fun d => funext fun a => Fin.ext (by
    match a with | ⟨0, _⟩ => rfl | ⟨1, _⟩ => rfl | ⟨2, _⟩ => rfl)
  have hr : ∀ d : Fin 256, ridx_main_v0 (ix3 n l o) d = ix2 o d := fun d => funext fun a => Fin.ext (by
    match a with | ⟨0, _⟩ => rfl | ⟨1, _⟩ => rfl)
  have hb : idx_main_v1 (idx_main_v2 (ix3 n l o)) = ix1 o := funext fun a => Fin.ext (by
    match a with | ⟨0, _⟩ => rfl)
  simp only [hl, hr, hb, Ideal.addf_def]
  rfl

/-- The K and V layers are the same program text on other arguments. -/
theorem v7_eq_v3 (x : XTy) (w : MTy) (b : BTy) : val_main_v7 (F := Ideal) x w b = val_main_v3 (F := Ideal) x w b := rfl
theorem v11_eq_v3 (x : XTy) (w : MTy) (b : BTy) : val_main_v11 (F := Ideal) x w b = val_main_v3 (F := Ideal) x w b := rfl

/-- K at (n, l, o). -/
theorem projK_eq (x : XTy) (w : MTy) (b : BTy) (n : Fin 8) (l : Fin 2048) (o : Fin 256) :
    val_main_v7 (F := Ideal) x w b (ix3 n l o) = Cert.AttnSpec.proj x w b n l o := by
  rw [v7_eq_v3, proj_eq]

/-- V at (n, l, o). -/
theorem projV_eq (x : XTy) (w : MTy) (b : BTy) (n : Fin 8) (l : Fin 2048) (o : Fin 256) :
    val_main_v11 (F := Ideal) x w b (ix3 n l o) = Cert.AttnSpec.proj x w b n l o := by
  rw [v11_eq_v3, proj_eq]

variable (x0 : XTy) (x1 : MTy) (x2 : BTy) (x3 : MTy) (x4 : BTy) (x5 : MTy) (x6 : BTy)

/-! ## The scaled scores

Q · Kᵀ at (n, q, k) contracts the feature axis of both; the scale 256 ^ (1/2) is a scalar broadcast everywhere. -/

theorem score_eq (n : Fin 8) (q k : Fin 2048) :
    val_main_v15 (F := Ideal) x0 x1 x2 x3 x4 (ix3 n q k) = Cert.AttnSpec.score x0 x1 x2 x3 x4 n q k := by
  rw [val_main_v15_apply, val_main_v13_apply, val_main_v14_apply, val_main_v12_apply, val_main_cst_apply,
    val_main_cst_0_apply]
  have hl : ∀ d : Fin 256, lidx_main_v13 (ix3 n q k) d = ix3 n q d := fun d => funext fun a => Fin.ext (by
    match a with | ⟨0, _⟩ => rfl | ⟨1, _⟩ => rfl | ⟨2, _⟩ => rfl)
  have hr : ∀ d : Fin 256, ridx_main_v13 (ix3 n q k) d = ix3 n k d := fun d => funext fun a => Fin.ext (by
    match a with | ⟨0, _⟩ => rfl | ⟨1, _⟩ => rfl | ⟨2, _⟩ => rfl)
  simp only [hl, hr, proj_eq, projK_eq, Ideal.hostDivf_def, Ideal.hostPowf_def, Ideal.ofBits_def]
  rw [div_scale]
  rfl

/-! ## The column maximum

The reduction over the query axis is, at (n, k), the fold of max from the initial value -∞ over q of the operand at
(n, q, k); the reference then takes the maximum of that with -∞ once more, which changes nothing. -/

/-- The max-reduce over axis 1 of an [8, 2048, 2048] array, read at (n, k). -/
theorem reduceMax_at (x : (⟨S8x2048x2048, .f32⟩ : BufTy).Contents (Elt Ideal)) (n : Fin 8) (k : Fin 2048) :
    Host.reduce (FloatOps.maximumf (F := Ideal) (φ := .f32)) x (val_main_cst_1 (F := Ideal))
        Gen.reducesTo_S8x2048x2048_S8x2048_d1 Gen.h_S_ (ix2 n k)
      = (Finset.univ : Finset (Fin 2048)).fold max (Ideal.ofBits .f32 0xFF800000#32) (fun q => x (ix3 n q k)) := by
  have h : S8x2048x2048.Reduces [1] S8x2048 := by decide
  rw [Host.reduce_eq_fold_single (FloatOps.maximumf (F := Ideal) (φ := .f32)) x _ _ h _ (ix2 n k)]
  have hlift : (x ∘ h.lift (ix2 n k)) = fun q : Fin 2048 => x (ix3 n q k) := funext fun q => congrArg x (funext fun a =>
    Fin.ext (by match a with | ⟨0, _⟩ => rfl | ⟨1, _⟩ => rfl | ⟨2, _⟩ => rfl))
  rw [hlift]
  rfl

theorem colMax_eq (n : Fin 8) (k : Fin 2048) :
    val_main_v18 (F := Ideal) x0 x1 x2 x3 x4 (ix2 n k) = Cert.AttnSpec.colMax x0 x1 x2 x3 x4 n k := by
  rw [val_main_v18_apply, val_main_v17_apply, val_main_cst_2_apply]
  unfold val_main_v16
  rw [reduceMax_at]
  simp only [score_eq]
  show max (Ideal.ofBits .f32 0xFF800000#32)
      ((Finset.univ : Finset (Fin 2048)).fold max (Ideal.ofBits .f32 0xFF800000#32)
        (fun q => Cert.AttnSpec.score x0 x1 x2 x3 x4 n q k)) = _
  rw [max_eq_right ((Finset.le_fold_max _).mpr (Or.inl le_rfl))]
  rfl

/-! ## The shifted exponential, its column sums, the weights, the context -/

theorem expo_eq (n : Fin 8) (q k : Fin 2048) :
    val_main_v22 (F := Ideal) x0 x1 x2 x3 x4 (ix3 n q k) = Cert.AttnSpec.expo x0 x1 x2 x3 x4 n q k := by
  rw [val_main_v22_apply, val_main_v21_apply, val_main_v20_apply, val_main_v19_apply]
  have h : idx_main_v19 (idx_main_v20 (ix3 n q k)) = ix2 n k := funext fun a => Fin.ext (by
    match a with | ⟨0, _⟩ => rfl | ⟨1, _⟩ => rfl)
  rw [h, score_eq, colMax_eq]
  rfl

theorem colSum_eq (n : Fin 8) (k : Fin 2048) :
    val_main_v23 (F := Ideal) x0 x1 x2 x3 x4 (ix2 n k) = Cert.AttnSpec.colSum x0 x1 x2 x3 x4 n k := by
  rw [val_main_v23_apply, val_main_cst_3_apply]
  have h : ∀ q : Fin 2048, idx_main_v23 (ix2 n k) q = ix3 n q k := fun q => funext fun a => Fin.ext (by
    match a with | ⟨0, _⟩ => rfl | ⟨1, _⟩ => rfl | ⟨2, _⟩ => rfl)
  simp only [h, expo_eq, Ideal.ofBits_def, Ideal.ofBits_zero_f32, zero_add]
  rfl

/-- The attention weight at (n, q, k). -/
theorem attn_at (n : Fin 8) (q k : Fin 2048) :
    val_main_v26 (F := Ideal) x0 x1 x2 x3 x4 (ix3 n q k) = Cert.AttnSpec.attn x0 x1 x2 x3 x4 n q k := by
  rw [val_main_v26_apply, val_main_v25_apply, val_main_v24_apply]
  have h : idx_main_v24 (idx_main_v25 (ix3 n q k)) = ix2 n k := funext fun a => Fin.ext (by
    match a with | ⟨0, _⟩ => rfl | ⟨1, _⟩ => rfl)
  rw [h, expo_eq, colSum_eq]
  rfl

theorem ctx_eq (n : Fin 8) (q : Fin 2048) (d : Fin 256) :
    val_main_v27 (F := Ideal) x0 x1 x2 x3 x4 x5 x6 (ix3 n q d) = Cert.AttnSpec.ctx x0 x1 x2 x3 x4 x5 x6 n q d := by
  rw [val_main_v27_apply]
  have hl : ∀ k : Fin 2048, lidx_main_v27 (ix3 n q d) k = ix3 n q k := fun k => funext fun a => Fin.ext (by
    match a with | ⟨0, _⟩ => rfl | ⟨1, _⟩ => rfl | ⟨2, _⟩ => rfl)
  have hr : ∀ k : Fin 2048, ridx_main_v27 (ix3 n q d) k = ix3 n k d := fun k => funext fun a => Fin.ext (by
    match a with | ⟨0, _⟩ => rfl | ⟨1, _⟩ => rfl | ⟨2, _⟩ => rfl)
  simp only [hl, hr, attn_at, projV_eq]
  rfl

end Cert.ReferenceIdeal.RefValue

end
-- ==== Proof.RefIsSpec.lean ====
/-
  The reference program computes the specification.

  Its two results, as functions of the seven argument arrays over the extended reals, are the specification's arrays:
  the attention weights (a softmax over the query axis of the scaled scores), and Q's rows followed by the context's
  rows along axis 1. The weights are read index by index from the stage lemmas. The joined array is a two-piece
  concatenation along axis 1 of two [8, 2048, 256] arrays: at a row r below 2048 it is the first piece, Q, at
  (n, r, d); at a row r from 2048 on it is the second piece, the context, at (n, r - 2048, d) — the same case split
  the specification is written with.
-/
import proofs.«125716_j44633300140321_2_alg».proof.Proof.RefStages
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.ReadP

/-! ## The two results

The weights array is the weight at each index. The joined array lays Q's 2048 rows and then the context's 2048 rows
along axis 1: a row below 2048 reads Q at the same coordinates, a row from 2048 on reads the context 2048 rows up. -/

/-- The second result of the reference is the specification's array of attention weights. -/
theorem attn_eq (x0 : (⟨S8x2048x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) :
    val_main_v26 (F := Ideal) x0 x1 x2 x3 x4 = Cert.AttnSpec.attnOut x0 x1 x2 x3 x4 := by
  funext i
  obtain ⟨n, q, k, rfl⟩ : ∃ (n : Fin 8) (q k : Fin 2048), i = ix3 n q k := ⟨i 0, i 1, i 2, eq_ix3 i⟩
  rw [attn_at]
  rfl

/-- The joined array at one index. -/
theorem joined_at (x0 : (⟨S8x2048x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (i : S8x4096x256.Idx) :
    val_main_v28 (F := Ideal) x0 x1 x2 x3 x4 x5 x6 i = Cert.AttnSpec.joined x0 x1 x2 x3 x4 x5 x6 i := by
  unfold val_main_v28
  by_cases h : (i 1).val < 2048
  · have e : Cert.AttnSpec.joined x0 x1 x2 x3 x4 x5 x6 i = Cert.AttnSpec.proj x0 x1 x2 (i 0) ⟨(i 1).val, h⟩ (i 2) :=
      dif_pos h
    rw [e]
    refine Eq.trans (concatenate_pair_apply_left (t := S8x4096x256) (s₁ := S8x2048x256) (s₂ := S8x2048x256) (1 : Fin 3) _ _ _ i rfl
      (ix3 (n0 := 8) (n1 := 2048) (n2 := 256) (i 0) ⟨(i 1).val, h⟩ (i 2)) (fun b => by
        match b with
        | ⟨0, _⟩ => rfl
        | ⟨1, _⟩ => rfl
        | ⟨2, _⟩ => rfl)) ?_
    exact proj_eq x0 x1 x2 (i 0) ⟨(i 1).val, h⟩ (i 2)
  · have h4 : (i 1).val < 4096 := (i 1).isLt
    have e : Cert.AttnSpec.joined x0 x1 x2 x3 x4 x5 x6 i
        = Cert.AttnSpec.ctx x0 x1 x2 x3 x4 x5 x6 (i 0) ⟨(i 1).val - 2048, by omega⟩ (i 2) := dif_neg h
    rw [e]
    refine Eq.trans (concatenate_pair_apply_right (t := S8x4096x256) (s₁ := S8x2048x256) (s₂ := S8x2048x256) (1 : Fin 3) _ _ _ i rfl rfl
      (ix3 (n0 := 8) (n1 := 2048) (n2 := 256) (i 0) ⟨(i 1).val - 2048, by omega⟩ (i 2))
      (fun b hb => by
        match b with
        | ⟨0, _⟩ => rfl
        | ⟨1, _⟩ => exact absurd rfl hb
        | ⟨2, _⟩ => rfl)
      (by show (i 1).val - 2048 + 2048 = (i 1).val; omega)) ?_
    exact ctx_eq x0 x1 x2 x3 x4 x5 x6 (i 0) ⟨(i 1).val - 2048, by omega⟩ (i 2)

/-- The first result of the reference is the specification's joined array. -/
theorem joined_eq (x0 : (⟨S8x2048x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) :
    val_main_v28 (F := Ideal) x0 x1 x2 x3 x4 x5 x6 = Cert.AttnSpec.joined x0 x1 x2 x3 x4 x5 x6 :=
  funext fun i => joined_at x0 x1 x2 x3 x4 x5 x6 i

end Cert.ReferenceIdeal.RefValue

end
-- ==== Proof.BodyPieces.lean ====
/-
  What one run of the kernel body leaves in its two output blocks and in the scratch that carries the queries, as
  values: each is the body's arithmetic (the generated payload functions) applied to the blocks the body loaded.

  The body at grid point (b, kt) sees the whole batch block x₀ = x[b] (2048 rows), the three weight matrices and
  biases, the stacked output block [2, 2048, 256] (slot 0 = queries, slot 1 = the context accumulated so far), the
  attention block [2048, 512] of key columns kt·512 … kt·512+511, and a scratch [2048, 256] holding the queries.
    • at kt = 0 it computes the queries from x₀, writes them to slot 0 and to the scratch, and zeroes slot 1;
    • at every kt it reads 512 rows of x₀ (`keyRows`), projects them to keys and values, forms the scores of ALL queries
      (read back from the scratch) against these keys, normalises each key column over the query axis, stores that
      block, and adds (weights · values) to slot 1.
  So slot 0 keeps the queries, slot 1 gains one partial sum per point, the scratch is written once per batch.
-/
import proofs.«125716_j44633300140321_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx

namespace Cert.KernelIdeal.KV

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 rows of the batch block that the point projects to keys and values: rows kt·512 … kt·512 + 511. -/
def keyRows (i : grid0.Coords) (x0 : Vec F S1x2048x256 .f32) : Vec F S1x512x256 .f32 :=
  View.ld x0 (Rect.unit (s := S1x2048x256) (k0_off1 i) S1x512x256.size (k0_off1_inb i))

/-- The two halves of the stacked output block. -/
abbrev slot0 : Rect S1x2x2048x256 :=
  Rect.unit (s := S1x2x2048x256) ![0, 0, 0, 0] S1x1x2048x256.size inb_S1x2x2048x256_S1x1x2048x256_0_0_0_0
abbrev slot1 : Rect S1x2x2048x256 :=
  Rect.unit (s := S1x2x2048x256) ![0, 1, 0, 0] S1x1x2048x256.size inb_S1x2x2048x256_S1x1x2048x256_0_1_0_0

theorem emb_slot0 (l : Fin 2048) (d : Fin 256) : slot0.emb (ix4 (0 : Fin 1) (0 : Fin 1) l d) = ix4 (0 : Fin 1) (0 : Fin 2) l d := by
  funext a; apply Fin.ext
  match a with
  | ⟨0, _⟩ => rfl
  | ⟨1, _⟩ => rfl
  | ⟨2, _⟩ => show 0 + 1 * l.val = l.val; omega
  | ⟨3, _⟩ => show 0 + 1 * d.val = d.val; omega

theorem emb_slot1 (l : Fin 2048) (d : Fin 256) : slot1.emb (ix4 (0 : Fin 1) (0 : Fin 1) l d) = ix4 (0 : Fin 1) (1 : Fin 2) l d := by
  funext a; apply Fin.ext
  match a with
  | ⟨0, _⟩ => rfl
  | ⟨1, _⟩ => rfl
  | ⟨2, _⟩ => show 0 + 1 * l.val = l.val; omega
  | ⟨3, _⟩ => show 0 + 1 * d.val = d.val; omega

theorem slot0_not_mem_slot1 (l : Fin 2048) (d : Fin 256) : ix4 (0 : Fin 1) (0 : Fin 2) l d ∉ slot1.set := by
  intro h
  have := (Rect.mem_set_unit.mp h) 1
  have h1 : ((ix4 (0 : Fin 1) (0 : Fin 2) l d : S1x2x2048x256.Idx) 1 : Nat) = 0 := rfl
  rw [h1] at this
  exact absurd this.1 (by decide)

/-- The exponentials of the point's shifted scores: all 2048 queries `qs` against the point's 512 keys. -/
def expTile (i : grid0.Coords) (x0 : Vec F S1x2048x256 .f32) (x3 : Vec F S256x256 .f32) (x4 : Vec F S1x256 .f32)
    (qs : Vec F S2048x256 .bf16) : FVec F S2048x512 .f32 :=
  k0_pay10 (keyRows i x0) x3 x4 qs

/-- The point's 512 value rows. -/
def valTile (i : grid0.Coords) (x0 : Vec F S1x2048x256 .f32) (x5 : Vec F S256x256 .f32) (x6 : Vec F S1x256 .f32) :
    FVec F S512x256 .f32 :=
  k0_pay9 (keyRows i x0) x5 x6

/-- At the first key tile the scratch is left holding the queries. -/
theorem scratch_A (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x2x2048x256 .f32) (harg9 : arg9.IsWhole) (arg10 : Memref sig .tc .vmem S1x2048x512 .f32) (harg10 : arg10.IsWhole) (arg11 : Memref sig .tc .vmem S2048x256 .bf16) (harg11 : arg11.IsWhole) (hc0 : cond0_0 i) (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay7 x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg3.read_unread, harg4.read_unread,
    View.ld_unit_zero (S := S1x2048x256) hz3, View.ld_unit_zero (S := S256x256) hz2, View.ld_unit_zero (S := S1x256) hz2]

/-- At the first key tile the attention block is the normalised exponentials against the queries just computed. -/
theorem attn_A (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x2x2048x256 .f32) (harg9 : arg9.IsWhole) (arg10 : Memref sig .tc .vmem S1x2048x512 .f32) (harg10 : arg10.IsWhole) (arg11 : Memref sig .tc .vmem S2048x256 .bf16) (harg11 : arg11.IsWhole) (hc0 : cond0_0 i) (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) :
    out0_A_8 c i arg2 harg2 arg3 harg3 arg4 harg4 arg5 harg5 arg6 harg6 arg7 harg7 arg8 harg8 arg9 harg9 arg10 harg10 arg11 harg11 hc0 x0 x1 x2 x3 x4 x5 x6 = k0_pay2 (expTile i x0 x3 x4 (k0_pay7 x0 x1 x2)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3, View.readCov_unit_zero (S := S2048x256) _ hz2]
  simp only [View.readAt_eq_ld, harg2.read_unread, harg3.read_unread, harg4.read_unread, harg5.read_unread, harg6.read_unread,
    View.ld_unit_zero (S := S1x2048x256) hz3, View.ld_unit_zero (S := S256x256) hz2, View.ld_unit_zero (S := S1x256) hz2]
  rfl

/-- At a later key tile it is the same against the queries the scratch carries. -/
theorem attn_B (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x2x2048x256 .f32) (harg9 : arg9.IsWhole) (arg10 : Memref sig .tc .vmem S1x2048x512 .f32) (harg10 : arg10.IsWhole) (arg11 : Memref sig .tc .vmem S2048x256 .bf16) (harg11 : arg11.IsWhole) (hc0 : ¬cond0_0 i) (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) (xo7 : Vec F S1x2x2048x256 .f32) (xs0 : Vec F S2048x256 .bf16) :
    out0_B_8 c i arg2 harg2 arg3 harg3 arg4 harg4 arg5 harg5 arg6 harg6 arg7 harg7 arg8 harg8 arg9 harg9 arg10 harg10 arg11 harg11 hc0 x0 x1 x2 x3 x4 x5 x6 xo7 xs0 = k0_pay2 (expTile i x0 x3 x4 xs0) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 xo7 xs0)]
  unfold kernelRun0_B
  dsimp only
  sl_unfold_words
  rw [View.canon_unit_zero hz3]
  simp only [View.readAt_eq_ld, harg2.read_unread, harg5.read_unread, harg6.read_unread, harg11.read_unread,
    View.ld_unit_zero (S := S256x256) hz2, View.ld_unit_zero (S := S1x256) hz2, View.ld_unit_zero (S := S2048x256) hz2]
  rfl

/-- A load of slot 1 straight after a store to slot 1 reads what was stored. -/
theorem readBack_slot1 {sig' : RefSig} {κ : Kind} {sp : Space} (v : View sig' κ sp S1x2x2048x256 .f32)
    (w : slot1.shape.Idx → Elt F .f32) (L : List (View.Piece (Elt F) S1x2x2048x256 .f32)) :
    v.readCov (⟨slot1, w⟩ :: L) slot1.toLoadRect = w := by
  rw [View.readCov_eq_canon']
  funext j
  exact View.canon_cons_emb slot1 w L j

/-- Three stores into the stacked block — slot 1, slot 1, then (earliest) slot 0 — read back: slot 0 holds the earliest
    store's payload, slot 1 the latest's. -/
theorem canon_slot0 (w1 w1' : slot1.shape.Idx → Elt F .f32) (w0 : slot0.shape.Idx → Elt F .f32) (l : Fin 2048) (d : Fin 256) :
    View.canon [(⟨slot1, w1⟩ : View.Piece (Elt F) S1x2x2048x256 .f32), ⟨slot1, w1'⟩, ⟨slot0, w0⟩] (ix4 (0 : Fin 1) (0 : Fin 2) l d)
      = w0 (ix4 (0 : Fin 1) (0 : Fin 1) l d) := by
  have h1 : ix4 (0 : Fin 1) (0 : Fin 2) l d ∉ ((⟨slot1, w1⟩ : View.Piece (Elt F) S1x2x2048x256 .f32)).1.set := slot0_not_mem_slot1 l d
  have h2 : ix4 (0 : Fin 1) (0 : Fin 2) l d ∉ ((⟨slot1, w1'⟩ : View.Piece (Elt F) S1x2x2048x256 .f32)).1.set := slot0_not_mem_slot1 l d
  refine (View.canon_cons_of_not_mem (⟨slot1, w1⟩ : View.Piece (Elt F) S1x2x2048x256 .f32) [⟨slot1, w1'⟩, ⟨slot0, w0⟩] h1).trans ?_
  refine (View.canon_cons_of_not_mem (⟨slot1, w1'⟩ : View.Piece (Elt F) S1x2x2048x256 .f32) [⟨slot0, w0⟩] h2).trans ?_
  have e := View.canon_cons_emb slot0 w0 [] (ix4 (0 : Fin 1) (0 : Fin 1) l d)
  rw [emb_slot0 l d] at e
  exact e

theorem canon_slot1 (w1 : slot1.shape.Idx → Elt F .f32) (L : List (View.Piece (Elt F) S1x2x2048x256 .f32)) (l : Fin 2048) (d : Fin 256) :
    View.canon ((⟨slot1, w1⟩ : View.Piece (Elt F) S1x2x2048x256 .f32) :: L) (ix4 (0 : Fin 1) (1 : Fin 2) l d)
      = w1 (ix4 (0 : Fin 1) (0 : Fin 1) l d) := by
  have e := View.canon_cons_emb slot1 w1 L (ix4 (0 : Fin 1) (0 : Fin 1) l d)
  rw [emb_slot1 l d] at e
  exact e

/-- One store into slot 1 of a block holding `f`, read back through any view: slot 1 holds the payload, slot 0 what `f` read. -/
theorem read_write_slot1 {sig' : RefSig} {κ : Kind} {sp : Space} (v : View sig' κ sp S1x2x2048x256 .f32) (f : v.ty.Contents (Elt F))
    (w1 : slot1.shape.Idx → Elt F .f32) (l : Fin 2048) (d : Fin 256) :
    v.read (Elt F) (v.writes (Elt F) f [⟨slot1, w1⟩]) (ix4 (0 : Fin 1) (1 : Fin 2) l d) = w1 (ix4 (0 : Fin 1) (0 : Fin 1) l d) := by
  have e := View.read_writes_cons_emb v f slot1 w1 [] (ix4 (0 : Fin 1) (0 : Fin 1) l d)
  rw [emb_slot1 l d] at e
  exact e

theorem read_write_slot0 {sig' : RefSig} {κ : Kind} {sp : Space} (v : View sig' κ sp S1x2x2048x256 .f32) (f : v.ty.Contents (Elt F))
    (w1 : slot1.shape.Idx → Elt F .f32) (l : Fin 2048) (d : Fin 256) :
    v.read (Elt F) (v.writes (Elt F) f [⟨slot1, w1⟩]) (ix4 (0 : Fin 1) (0 : Fin 2) l d) = v.read (Elt F) f (ix4 (0 : Fin 1) (0 : Fin 2) l d) := by
  have h : ix4 (0 : Fin 1) (0 : Fin 2) l d ∉ (Finset.univ : Finset slot1.shape.Idx).map slot1.emb := by
    rw [Rect.map_emb_univ]; exact slot0_not_mem_slot1 l d
  exact View.read_slice_write_of_not_mem (v := v) slot1 f w1 Finset.univ h

/-- After the first key tile, slot 0 holds the queries. -/
theorem stack_A_slot0 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x2x2048x256 .f32) (harg9 : arg9.IsWhole) (arg10 : Memref sig .tc .vmem S1x2048x512 .f32) (harg10 : arg10.IsWhole) (arg11 : Memref sig .tc .vmem S2048x256 .bf16) (harg11 : arg11.IsWhole) (hc0 : cond0_0 i) (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) (l : Fin 2048) (d : Fin 256) :
    out0_A_7 c i arg2 harg2 arg3 harg3 arg4 harg4 arg5 harg5 arg6 harg6 arg7 harg7 arg8 harg8 arg9 harg9 arg10 harg10 arg11 harg11 hc0 x0 x1 x2 x3 x4 x5 x6 (ix4 (0 : Fin 1) (0 : Fin 2) l d) = k0_pay5 x0 x1 x2 (ix4 (0 : Fin 1) (0 : Fin 1) l d) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  refine (canon_slot0 _ _ _ l d).trans ?_
  simp only [View.readAt_eq_ld, harg2.read_unread, harg3.read_unread, harg4.read_unread,
    View.ld_unit_zero (S := S1x2048x256) hz3, View.ld_unit_zero (S := S256x256) hz2, View.ld_unit_zero (S := S1x256) hz2]

/-- After the first key tile, slot 1 holds zero plus the tile's weights times its values. -/
theorem stack_A_slot1 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x2x2048x256 .f32) (harg9 : arg9.IsWhole) (arg10 : Memref sig .tc .vmem S1x2048x512 .f32) (harg10 : arg10.IsWhole) (arg11 : Memref sig .tc .vmem S2048x256 .bf16) (harg11 : arg11.IsWhole) (hc0 : cond0_0 i) (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) (l : Fin 2048) (d : Fin 256) :
    out0_A_7 c i arg2 harg2 arg3 harg3 arg4 harg4 arg5 harg5 arg6 harg6 arg7 harg7 arg8 harg8 arg9 harg9 arg10 harg10 arg11 harg11 hc0 x0 x1 x2 x3 x4 x5 x6 (ix4 (0 : Fin 1) (1 : Fin 2) l d)
      = k0_pay3 (valTile i x0 x5 x6) (expTile i x0 x3 x4 (k0_pay7 x0 x1 x2)) k0_pay6 (ix4 (0 : Fin 1) (0 : Fin 1) l d) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  refine (canon_slot1 _ _ l d).trans ?_
  rw [readBack_slot1, View.readCov_unit_zero (S := S2048x256) _ hz2]
  simp only [View.readAt_eq_ld, harg2.read_unread, harg3.read_unread, harg4.read_unread, harg5.read_unread, harg6.read_unread,
    harg7.read_unread, harg8.read_unread,
    View.ld_unit_zero (S := S1x2048x256) hz3, View.ld_unit_zero (S := S256x256) hz2, View.ld_unit_zero (S := S1x256) hz2]
  rfl

/-- At a later key tile slot 0 is left as it was. -/
theorem stack_B_slot0 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x2x2048x256 .f32) (harg9 : arg9.IsWhole) (arg10 : Memref sig .tc .vmem S1x2048x512 .f32) (harg10 : arg10.IsWhole) (arg11 : Memref sig .tc .vmem S2048x256 .bf16) (harg11 : arg11.IsWhole) (hc0 : ¬cond0_0 i) (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) (xo7 : Vec F S1x2x2048x256 .f32) (xs0 : Vec F S2048x256 .bf16) (l : Fin 2048) (d : Fin 256) :
    out0_B_7 c i arg2 harg2 arg3 harg3 arg4 harg4 arg5 harg5 arg6 harg6 arg7 harg7 arg8 harg8 arg9 harg9 arg10 harg10 arg11 harg11 hc0 x0 x1 x2 x3 x4 x5 x6 xo7 xs0 (ix4 (0 : Fin 1) (0 : Fin 2) l d) = xo7 (ix4 (0 : Fin 1) (0 : Fin 2) l d) := by
  unfold out0_B_7
  unfold kernelRun0_B
  dsimp only
  sl_unfold_words
  refine (read_write_slot0 _ _ _ l d).trans ?_
  rw [harg9.read_unread]

/-- At a later key tile slot 1 gains the tile's weights times its values. -/
theorem stack_B_slot1 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x2x2048x256 .f32) (harg9 : arg9.IsWhole) (arg10 : Memref sig .tc .vmem S1x2048x512 .f32) (harg10 : arg10.IsWhole) (arg11 : Memref sig .tc .vmem S2048x256 .bf16) (harg11 : arg11.IsWhole) (hc0 : ¬cond0_0 i) (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) (xo7 : Vec F S1x2x2048x256 .f32) (xs0 : Vec F S2048x256 .bf16) (l : Fin 2048) (d : Fin 256) :
    out0_B_7 c i arg2 harg2 arg3 harg3 arg4 harg4 arg5 harg5 arg6 harg6 arg7 harg7 arg8 harg8 arg9 harg9 arg10 harg10 arg11 harg11 hc0 x0 x1 x2 x3 x4 x5 x6 xo7 xs0 (ix4 (0 : Fin 1) (1 : Fin 2) l d)
      = k0_pay3 (valTile i x0 x5 x6) (expTile i x0 x3 x4 xs0) (View.ld xo7 slot1) (ix4 (0 : Fin 1) (0 : Fin 1) l d) := by
  unfold out0_B_7
  unfold kernelRun0_B
  dsimp only
  sl_unfold_words
  refine (read_write_slot1 _ _ _ l d).trans ?_
  simp only [View.readAt_eq_ld, harg2.read_unread, harg5.read_unread, harg6.read_unread, harg7.read_unread, harg8.read_unread,
    harg9.read_unread, harg11.read_unread,
    View.ld_unit_zero (S := S256x256) hz2, View.ld_unit_zero (S := S1x256) hz2, View.ld_unit_zero (S := S2048x256) hz2]
  rfl

end Cert.KernelIdeal.KV

end
-- ==== Proof.Blocks.lean ====
/-
  The blocks the body is handed at a grid point, read at an index, as entries of the argument arrays.

  Grid point t = 4·b + kt (b < 8 the batch, kt < 4 the key tile). The activations' block is batch b of x, whole; the three
  weight matrices are handed whole; each bias reaches the body as a [1, 256] row (a reshape made before the call);
  the rows the point projects to keys and values are rows 512·kt … 512·kt + 511 of the batch block.
-/
import proofs.«125716_j44633300140321_2_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run
import proofs.«125716_j44633300140321_2_alg».proof.Proof.BodyPieces

noncomputable section

open Idealize.ShloMosaic Idealize.ShloMosaic.TcCoe Idealize.SL.Sem Idealize.ShloMosaic.ValueIdx

namespace Cert.KernelIdeal.KV

open Cert.KernelIdeal Cert.KernelIdeal.Gen

variable {F : FTy → Type} [FloatOps F]
variable (m : (ℓ : Loc nD τ sig) → Buf (Elt F) ℓ)

/-- The printed index maps and the grid's coordinates, decided once over the 32 points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 4) = t.val / 4 ∧ win0_7.index t (1 : Fin 4) = 0 ∧ win0_7.index t (2 : Fin 4) = 0 ∧ win0_7.index t (3 : Fin 4) = 0
    ∧ win0_8.index t (0 : Fin 3) = t.val / 4 ∧ win0_8.index t (1 : Fin 3) = 0 ∧ win0_8.index t (2 : Fin 3) = t.val % 4
    ∧ (grid0.coords t (0 : Fin 2)).val = t.val / 4 ∧ (grid0.coords t (1 : Fin 2)).val = t.val % 4 :=
  (by decide +kernel : ∀ t : Fin grid0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 4) = t.val / 4 ∧ win0_7.index t (1 : Fin 4) = 0 ∧ win0_7.index t (2 : Fin 4) = 0 ∧ win0_7.index t (3 : Fin 4) = 0
    ∧ win0_8.index t (0 : Fin 3) = t.val / 4 ∧ win0_8.index t (1 : Fin 3) = 0 ∧ win0_8.index t (2 : Fin 3) = t.val % 4
    ∧ (grid0.coords t (0 : Fin 2)).val = t.val / 4 ∧ (grid0.coords t (1 : Fin 2)).val = t.val % 4)

theorem lt32 (t : Fin cfg0.N) : t.val < 32 := lt_of_lt_of_eq t.isLt (show cfg0.N = 32 from N_0)

/-- The batch a point works on. -/
def batchOf (t : Fin cfg0.N) : Fin 8 := ⟨t.val / 4, by have := lt32 t; omega⟩

/-- The activations' block at point t is batch t / 4 of x. -/
theorem iblk0_at (c : Dev nD) (t : Fin cfg0.N) (l : Fin 2048) (d : Fin 256) :
    iblk m c 0 t (ix3 (0 : Fin 1) l d) = m ((c.tc : Thread nD τ).loc main_arg0) (ix3 (batchOf t) l d) := by
  unfold iblk
  rw [View.read_apply]
  show V m c main_arg0 _ = _
  rw [V_main_arg0]
  refine congrArg _ (funext fun a => Fin.ext ?_)
  obtain ⟨e0, e1, e2, -⟩ := idx_facts t
  match a with
  | ⟨0, _⟩ => show win0_0.index t (0 : Fin 3) * 1 + 1 * 0 = t.val / 4; omega
  | ⟨1, _⟩ => show win0_0.index t (1 : Fin 3) * 2048 + 1 * l.val = l.val; omega
  | ⟨2, _⟩ => show win0_0.index t (2 : Fin 3) * 256 + 1 * d.val = d.val; omega

/-- Weight matrix of window 1: handed whole. -/
theorem iblk1_at (c : Dev nD) (t : Fin cfg0.N) (o d : Fin 256) :
    iblk m c 1 t (ix2 o d) = m ((c.tc : Thread nD τ).loc main_arg1) (ix2 o d) := by
  unfold iblk
  rw [View.read_apply]
  show V m c main_arg1 _ = _
  rw [V_main_arg1]
  refine congrArg _ (funext fun a => Fin.ext ?_)
  have hf := idx_facts t
  match a with
  | ⟨0, _⟩ => show win0_1.index t (0 : Fin 2) * 256 + 1 * o.val = o.val; omega
  | ⟨1, _⟩ => show win0_1.index t (1 : Fin 2) * 256 + 1 * d.val = d.val; omega

/-- Weight matrix of window 3: handed whole. -/
theorem iblk3_at (c : Dev nD) (t : Fin cfg0.N) (o d : Fin 256) :
    iblk m c 3 t (ix2 o d) = m ((c.tc : Thread nD τ).loc main_arg3) (ix2 o d) := by
  unfold iblk
  rw [View.read_apply]
  show V m c main_arg3 _ = _
  rw [V_main_arg3]
  refine congrArg _ (funext fun a => Fin.ext ?_)
  have hf := idx_facts t
  match a with
  | ⟨0, _⟩ => show win0_3.index t (0 : Fin 2) * 256 + 1 * o.val = o.val; omega
  | ⟨1, _⟩ => show win0_3.index t (1 : Fin 2) * 256 + 1 * d.val = d.val; omega

/-- Weight matrix of window 5: handed whole. -/
theorem iblk5_at (c : Dev nD) (t : Fin cfg0.N) (o d : Fin 256) :
    iblk m c 5 t (ix2 o d) = m ((c.tc : Thread nD τ).loc main_arg5) (ix2 o d) := by
  unfold iblk
  rw [View.read_apply]
  show V m c main_arg5 _ = _
  rw [V_main_arg5]
  refine congrArg _ (funext fun a => Fin.ext ?_)
  have hf := idx_facts t
  match a with
  | ⟨0, _⟩ => show win0_5.index t (0 : Fin 2) * 256 + 1 * o.val = o.val; omega
  | ⟨1, _⟩ => show win0_5.index t (1 : Fin 2) * 256 + 1 * d.val = d.val; omega

/-- The [1, 256] row made of bias main_arg2 before the call. -/
theorem V_main_v0 (c : Dev nD) : (V m c main_v0 : S1x256.Idx → Elt F .f32) = shapeCast S1x256 (m ((c.tc : Thread nD τ).loc main_arg2)) shapeCasts_S256_S1x256 := by
  show StableHlo.after hostOps0 (fun b => m (c, b)) (Proc.devRef .tc main_v0) = _
  after_results
  rfl

/-- Bias of window 2: its row, entry by entry. -/
theorem iblk2_at (c : Dev nD) (t : Fin cfg0.N) (o : Fin 256) :
    iblk m c 2 t (ix2 (0 : Fin 1) o) = m ((c.tc : Thread nD τ).loc main_arg2) (ix1 o) := by
  unfold iblk
  rw [View.read_apply]
  show V m c main_v0 _ = _
  rw [V_main_v0]
  have hf := idx_facts t
  refine (shapeCast_addUnit_apply ![256] _ shapeCasts_S256_S1x256 _).trans (congrArg _ (funext fun a => Fin.ext ?_))
  match a with
  | ⟨0, _⟩ => show win0_2.index t (1 : Fin 2) * 256 + 1 * o.val = o.val; omega

/-- The [1, 256] row made of bias main_arg4 before the call. -/
theorem V_main_v1 (c : Dev nD) : (V m c main_v1 : S1x256.Idx → Elt F .f32) = shapeCast S1x256 (m ((c.tc : Thread nD τ).loc main_arg4)) shapeCasts_S256_S1x256 := by
  show StableHlo.after hostOps0 (fun b => m (c, b)) (Proc.devRef .tc main_v1) = _
  after_results
  rfl

/-- Bias of window 4: its row, entry by entry. -/
theorem iblk4_at (c : Dev nD) (t : Fin cfg0.N) (o : Fin 256) :
    iblk m c 4 t (ix2 (0 : Fin 1) o) = m ((c.tc : Thread nD τ).loc main_arg4) (ix1 o) := by
  unfold iblk
  rw [View.read_apply]
  show V m c main_v1 _ = _
  rw [V_main_v1]
  have hf := idx_facts t
  refine (shapeCast_addUnit_apply ![256] _ shapeCasts_S256_S1x256 _).trans (congrArg _ (funext fun a => Fin.ext ?_))
  match a with
  | ⟨0, _⟩ => show win0_4.index t (1 : Fin 2) * 256 + 1 * o.val = o.val; omega

/-- The [1, 256] row made of bias main_arg6 before the call. -/
theorem V_main_v2 (c : Dev nD) : (V m c main_v2 : S1x256.Idx → Elt F .f32) = shapeCast S1x256 (m ((c.tc : Thread nD τ).loc main_arg6)) shapeCasts_S256_S1x256 := by
  show StableHlo.after hostOps0 (fun b => m (c, b)) (Proc.devRef .tc main_v2) = _
  after_results
  rfl

/-- Bias of window 6: its row, entry by entry. -/
theorem iblk6_at (c : Dev nD) (t : Fin cfg0.N) (o : Fin 256) :
    iblk m c 6 t (ix2 (0 : Fin 1) o) = m ((c.tc : Thread nD τ).loc main_arg6) (ix1 o) := by
  unfold iblk
  rw [View.read_apply]
  show V m c main_v2 _ = _
  rw [V_main_v2]
  have hf := idx_facts t
  refine (shapeCast_addUnit_apply ![256] _ shapeCasts_S256_S1x256 _).trans (congrArg _ (funext fun a => Fin.ext ?_))
  match a with
  | ⟨0, _⟩ => show win0_6.index t (1 : Fin 2) * 256 + 1 * o.val = o.val; omega

/-- The rows a point projects to keys and values: row j of the tile is row 512·kt + j of the batch block. -/
theorem keyRows_at (i : grid0.Coords) (x0 : Vec F S1x2048x256 .f32) (j : Fin 512) (e : Fin 256) (h : 512 * (i 1).val + j.val < 2048) :
    keyRows i x0 (ix3 (0 : Fin 1) j e) = x0 (ix3 (0 : Fin 1) (⟨512 * (i 1).val + j.val, h⟩ : Fin 2048) e) := by
  unfold keyRows
  show x0 _ = x0 _
  refine congrArg x0 (funext fun a => Fin.ext ?_)
  match a with
  | ⟨0, _⟩ => rfl
  | ⟨1, _⟩ =>
    show (k0_off1 i) 1 + 1 * j.val = 512 * (i 1).val + j.val
    have hk : (k0_off1 i) 1 = 512 * (i 1).val := by
      have key : ∀ k : Fin 4, (Scalar.indexCast (Scalar.muli (BitVec.ofNat 32 k.val) 512#32)).toNat = 512 * k.val := by decide
      exact key (i 1)
    omega
  | ⟨2, _⟩ => show 0 + 1 * e.val = e.val; omega

end Cert.KernelIdeal.KV

end
-- ==== Proof.PayloadAt.lean ====
/-
  The kernel body's arithmetic read at one index, over the extended reals.

  Every value the kernel body computes is a composition of a few operations on whole blocks: a change of layout
  (dropping or adding unit axes, a matrix transpose, one row repeated over many), a matrix product into a zero
  accumulator, a sum or a maximum down the columns of a [2048, 512] block, and pointwise arithmetic. Read at a single
  index each of these is a plain formula:
    a linear layer        (x Wᵀ + b)(r, o)   = (∑ d, x (r, d) · W (o, d)) + b o
    a column sum          (∑ over rows)(j)    = ∑ q, v (q, j)
    a column maximum      (max over rows)(j)  = the fold of max from -∞ over q of v (q, j)
  A change of float format is the identity on the extended reals, so the bf16 roundings in the body disappear.
  The theorems `payN_at` state each block value of the body as such a formula of the blocks it is computed from.
-/
import proofs.«125716_j44633300140321_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen

/-! ## Single operations read at coordinates -/

/-- Narrowing f32 to bf16 is the identity on the extended reals. -/
theorem truncf_bf16_apply {s : Shape} (a : FVec Ideal s .f32) (h : FTy.bits .bf16 < FTy.bits .f32) (i : s.Idx) :
    (truncf .bf16 a h : FVec Ideal s .bf16) i = a i := rfl

/-- A plain matrix product (rows × contraction times contraction × columns) into the zero accumulator, read at
    (r, c): the sum over the contraction coordinate k of lhs (r, k) · rhs (k, c). -/
theorem matmul_plain_zero_apply {M K N : Nat} {φ₁ φ₂ : FTy}
    (D : DotDims ⟨2, ![M, K]⟩ ⟨2, ![K, N]⟩ ⟨2, ![M, N]⟩) (hD : D = DotDims.plain M K N)
    (lhs : FVec Ideal ⟨2, ![M, K]⟩ φ₁) (rhs : FVec Ideal ⟨2, ![K, N]⟩ φ₂) (r : Fin M) (c : Fin N) :
    matmul D none lhs rhs (constant (F := Ideal) ⟨2, ![M, N]⟩ .f32 0x00000000#32) (ix2 r c)
      = ∑ k : Fin K, lhs (ix2 r k) * rhs (ix2 k c) := by
  subst hD
  refine (Ideal.matmul_constant_zero_apply (DotDims.plain M K N) none lhs rhs (ix2 r c)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- An [a, b] array cast to [1, 1, a, b] reads, at (u, v, i, j), the operand at (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A [1, 1, a, b] array cast to [a, b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The index of a [2048, 512] block whose column is j and whose row, the reduced coordinate, is q. -/
theorem lift_col (h : S2048x512.Reduces [0] S512) (j : Fin 512) (q : Fin 2048) : h.lift (ix1 j) q = ix2 q j :=
  funext fun a => Fin.ext (by match a with | ⟨0, _⟩ => rfl | ⟨1, _⟩ => rfl)

/-- The sum down column j of a [2048, 512] block. -/
theorem colSum_apply (v : FVec Ideal S2048x512 .f32) (hφ : FKind.Formats .f32)
    (hacc : (0x00000000#32 : BitVec 32) = FKind.add.neutral .f32 hφ) (j : Fin 512) :
    multiReduction .add [0] S512 v 0x00000000#32 reduces_S2048x512_S512 hφ hacc (ix1 j) = ∑ q : Fin 2048, v (ix2 q j) :=
  (Ideal.multiReduction_add_single v 0x00000000#32 reduces_S2048x512_S512 hφ hacc (ix1 j)).trans
    (Finset.sum_congr rfl fun q _ => congrArg v (lift_col _ j q))

/-- The maximum down column j of a [2048, 512] block: the fold of max from -∞ over the rows. -/
theorem colMax_apply (v : FVec Ideal S2048x512 .f32) (hφ : FKind.Formats .f32)
    (hacc : (0xFF800000#32 : BitVec 32) = FKind.maximumf.neutral .f32 hφ) (j : Fin 512) :
    multiReduction .maximumf [0] S512 v 0xFF800000#32 reduces_S2048x512_S512 hφ hacc (ix1 j)
      = (Finset.univ : Finset (Fin 2048)).fold max (Ideal.ofBits .f32 0xFF800000#32) (fun q => v (ix2 q j)) :=
  (Ideal.multiReduction_maximumf_single v 0xFF800000#32 reduces_S2048x512_S512 hφ hacc (ix1 j)).trans
    (Finset.fold_congr fun q _ => congrArg v (lift_col _ j q))

/-- A column statistic c : [512], kept as a [1, 512] row and repeated over the 2048 rows, reads c j at (q, j). -/
theorem keepCol_apply (c : FVec Ideal S512 .f32) (q : Fin 2048) (j : Fin 512) :
    broadcastTo S2048x512 (shapeCast S1x512 c shapeCasts_S512_S1x512) broadcasts_S1x512_S2048x512 (ix2 q j) = c (ix1 j) :=
  (broadcastTo_1b_ab_apply _ _ q j).trans (shapeCast_a_1a_apply c _ 0 j)

/-- A bias row b : [1, 256] repeated over a rows reads b (0, o) at (r, o). -/
theorem biasRow_apply {a : ℕ} (b : Vec Ideal S1x256 .f32) (h : S1x256.Broadcasts ⟨2, ![a, 256]⟩) (r : Fin a) (o : Fin 256) :
    broadcastTo ⟨2, ![a, 256]⟩ (shapeCast S1x256 b shapeCasts_S1x256_S1x256) h (ix2 r o) = b (ix2 (0 : Fin 1) o) :=
  (broadcastTo_1b_ab_apply _ h r o).trans (congrFun (shapeCast_self b _) _)

/-- A linear layer x Wᵀ + b on a rows, read at (r, o): W's rows are the output features, so the transposed weight
    at (d, o) is W (o, d). -/
theorem linear_apply {a : ℕ} (D : DotDims ⟨2, ![a, 256]⟩ S256x256 ⟨2, ![a, 256]⟩) (hD : D = DotDims.plain a 256 256)
    (X : FVec Ideal ⟨2, ![a, 256]⟩ .bf16) (W : Vec Ideal S256x256 .f32) (b : Vec Ideal S1x256 .f32)
    (hb : S1x256.Broadcasts ⟨2, ![a, 256]⟩) (r : Fin a) (o : Fin 256) :
    addf (matmul D none X (transpose S256x256 [1, 0] (truncf .bf16 W bitsLt_bf16_f32) transposes_S256x256_p1_0_S256x256)
        (constant (F := Ideal) ⟨2, ![a, 256]⟩ .f32 0x00000000#32))
      (broadcastTo ⟨2, ![a, 256]⟩ (shapeCast S1x256 b shapeCasts_S1x256_S1x256) hb) (ix2 r o)
      = (∑ d : Fin 256, X (ix2 r d) * W (ix2 o d)) + b (ix2 (0 : Fin 1) o) := by
  refine (addf_apply _ _ _).trans (congrArg₂ (· + ·) ?_ ?_)
  · refine (matmul_plain_zero_apply D hD _ _ r o).trans (Finset.sum_congr rfl fun d _ => congrArg (X (ix2 r d) * ·) ?_)
    exact (transpose_ix2_apply _ _ d o).trans (truncf_bf16_apply W _ _)
  · exact biasRow_apply b hb r o

/-- The exponential of a difference of two blocks, at an index. -/
theorem exp_sub_apply {s : Shape} (a b : FVec Ideal s .f32) (i : s.Idx) : exp (subf a b) i = Ideal.exp (a i - b i) := rfl

/-! ## The projections: Q's rows (all 2048 of a batch entry) and K's, V's rows (one 512-row block) -/

/-- Q at row l, feature o. -/
theorem pay4_at (v52 : Vec Ideal S1x2048x256 .f32) (v55 : Vec Ideal S256x256 .f32) (v59 : Vec Ideal S1x256 .f32)
    (l : Fin 2048) (o : Fin 256) :
    k0_pay4 (F := Ideal) v52 v55 v59 (ix2 l o)
      = (∑ d : Fin 256, v52 (ix3 (0 : Fin 1) l d) * v55 (ix2 o d)) + v59 (ix2 (0 : Fin 1) o) := by
  unfold k0_pay4
  refine (linear_apply (a := 2048) dot_S2048x256_S256x256_S2048x256_1_0_0_1_n_n rfl _ v55 v59 _ l o).trans ?_
  refine congrArg (· + v59 (ix2 (0 : Fin 1) o)) (Finset.sum_congr rfl fun d _ => congrArg (· * v55 (ix2 o d)) ?_)
  exact (truncf_bf16_apply _ _ _).trans (shapeCast_1ab_ab_apply v52 _ l d)

/-- Q laid out as the first slab of the stacked output block. -/
theorem pay5_at (v52 : Vec Ideal S1x2048x256 .f32) (v55 : Vec Ideal S256x256 .f32) (v59 : Vec Ideal S1x256 .f32)
    (l : Fin 2048) (o : Fin 256) :
    k0_pay5 (F := Ideal) v52 v55 v59 (ix4 (0 : Fin 1) (0 : Fin 1) l o) = k0_pay4 (F := Ideal) v52 v55 v59 (ix2 l o) := by
  unfold k0_pay5
  exact shapeCast_ab_11ab_apply (k0_pay4 (F := Ideal) v52 v55 v59) _ 0 0 l o

/-- The context slab starts at zero. -/
theorem pay6_at (l : Fin 2048) (o : Fin 256) : k0_pay6 (F := Ideal) (ix4 (0 : Fin 1) (0 : Fin 1) l o) = 0 := by
  unfold k0_pay6
  refine (shapeCast_ab_11ab_apply _ _ 0 0 l o).trans ?_
  exact Ideal.ofBits_zero_f32

/-- Q as kept for the later blocks: the same numbers (the narrowing of format is the identity here). -/
theorem pay7_at (v52 : Vec Ideal S1x2048x256 .f32) (v55 : Vec Ideal S256x256 .f32) (v59 : Vec Ideal S1x256 .f32)
    (l : Fin 2048) (o : Fin 256) :
    k0_pay7 (F := Ideal) v52 v55 v59 (ix2 l o) = k0_pay4 (F := Ideal) v52 v55 v59 (ix2 l o) := by
  unfold k0_pay7
  exact congrFun (shapeCast_self _ _) _

/-- The 512 input rows of the current block. -/
theorem pay8_at (v6 : Vec Ideal S1x512x256 .f32) (r : Fin 512) (d : Fin 256) :
    k0_pay8 (F := Ideal) v6 (ix2 r d) = v6 (ix3 (0 : Fin 1) r d) := by
  unfold k0_pay8
  exact (truncf_bf16_apply _ _ _).trans (shapeCast_1ab_ab_apply v6 _ r d)

/-- V at row r of the block, feature o. -/
theorem pay9_at (v6 : Vec Ideal S1x512x256 .f32) (v11 : Vec Ideal S256x256 .f32) (v21 : Vec Ideal S1x256 .f32)
    (r : Fin 512) (o : Fin 256) :
    k0_pay9 (F := Ideal) v6 v11 v21 (ix2 r o)
      = (∑ d : Fin 256, v6 (ix3 (0 : Fin 1) r d) * v11 (ix2 o d)) + v21 (ix2 (0 : Fin 1) o) := by
  unfold k0_pay9
  refine (linear_apply (a := 512) dot_S512x256_S256x256_S512x256_1_0_0_1_n_n rfl (k0_pay8 (F := Ideal) v6) v11 v21 _ r o).trans ?_
  exact congrArg (· + v21 (ix2 (0 : Fin 1) o)) (Finset.sum_congr rfl fun d _ => congrArg (· * v11 (ix2 o d)) (pay8_at v6 r d))

/-! ## The scores of all 2048 query rows against the block's 512 key rows, and their shifted exponentials -/

/-- The scaled score of query row q (a row of the kept Q) against key row j of the block: K's row j is the linear
    layer of the block's input row j. -/
def kscore (v6 : Vec Ideal S1x512x256 .f32) (v9 : Vec Ideal S256x256 .f32) (v15 : Vec Ideal S1x256 .f32)
    (v25 : Vec Ideal S2048x256 .bf16) (q : Fin 2048) (j : Fin 512) : EReal :=
  (∑ d : Fin 256, v25 (ix2 q d) * ((∑ e : Fin 256, v6 (ix3 (0 : Fin 1) j e) * v9 (ix2 d e)) + v15 (ix2 (0 : Fin 1) d)))
    * Ideal.ofBits .f32 0x3D800000#32

/-- The [2048, 512] block of scaled scores as the body computes it: Q times the transpose of K, times the scale. -/
def kscoreVec (v6 : Vec Ideal S1x512x256 .f32) (v9 : Vec Ideal S256x256 .f32) (v15 : Vec Ideal S1x256 .f32)
    (v25 : Vec Ideal S2048x256 .bf16) : FVec Ideal S2048x512 .f32 :=
  mulf
    (matmul (φ₁ := .bf16) dot_S2048x256_S256x512_S2048x512_1_0_0_1_n_n none v25
      (transpose S256x512 [1, 0]
        (truncf .bf16
          (addf
            (matmul dot_S512x256_S256x256_S512x256_1_0_0_1_n_n none (k0_pay8 (F := Ideal) v6)
              (transpose S256x256 [1, 0] (truncf .bf16 v9 bitsLt_bf16_f32) transposes_S256x256_p1_0_S256x256)
              (constant (F := Ideal) S512x256 .f32 0x00000000#32))
            (broadcastTo S512x256 (shapeCast S1x256 v15 shapeCasts_S1x256_S1x256) broadcasts_S1x256_S512x256))
          bitsLt_bf16_f32)
        transposes_S512x256_p1_0_S256x512)
      (constant (F := Ideal) S2048x512 .f32 0x00000000#32))
    (broadcast S2048x512 (Scalar.ofBits (F := Ideal) .f32 0x3D800000#32))

theorem kscoreVec_at (v6 : Vec Ideal S1x512x256 .f32) (v9 : Vec Ideal S256x256 .f32) (v15 : Vec Ideal S1x256 .f32)
    (v25 : Vec Ideal S2048x256 .bf16) (q : Fin 2048) (j : Fin 512) :
    kscoreVec v6 v9 v15 v25 (ix2 q j) = kscore v6 v9 v15 v25 q j := by
  unfold kscoreVec kscore
  refine (mulf_apply _ _ _).trans (congrArg₂ (· * ·) ?_ rfl)
  refine (matmul_plain_zero_apply _ rfl v25 _ q j).trans (Finset.sum_congr rfl fun d _ => congrArg (v25 (ix2 q d) * ·) ?_)
  refine (transpose_ix2_apply _ _ d j).trans ?_
  refine (truncf_bf16_apply _ _ _).trans ?_
  refine (linear_apply (a := 512) dot_S512x256_S256x256_S512x256_1_0_0_1_n_n rfl (k0_pay8 (F := Ideal) v6) v9 v15 _ j d).trans ?_
  exact congrArg (· + v15 (ix2 (0 : Fin 1) d)) (Finset.sum_congr rfl fun e _ => congrArg (· * v9 (ix2 d e)) (pay8_at v6 j e))

/-- The body's exponentials are: the score block, less its column maxima repeated over the rows, exponentiated. -/
theorem pay10_eq (v6 : Vec Ideal S1x512x256 .f32) (v9 : Vec Ideal S256x256 .f32) (v15 : Vec Ideal S1x256 .f32)
    (v25 : Vec Ideal S2048x256 .bf16) :
    k0_pay10 (F := Ideal) v6 v9 v15 v25
      = exp (subf (kscoreVec v6 v9 v15 v25)
          (broadcastTo S2048x512
            (shapeCast S1x512
              (multiReduction .maximumf [0] S512 (kscoreVec v6 v9 v15 v25) 0xFF800000#32 reduces_S2048x512_S512 (.inl rfl) rfl)
              shapeCasts_S512_S1x512)
            broadcasts_S1x512_S2048x512)) := rfl

/-- The shifted exponential at (q, j): the score less the largest score of column j over all query rows. -/
theorem pay10_at (v6 : Vec Ideal S1x512x256 .f32) (v9 : Vec Ideal S256x256 .f32) (v15 : Vec Ideal S1x256 .f32)
    (v25 : Vec Ideal S2048x256 .bf16) (q : Fin 2048) (j : Fin 512) :
    k0_pay10 (F := Ideal) v6 v9 v15 v25 (ix2 q j)
      = Ideal.exp (kscore v6 v9 v15 v25 q j
          - (Finset.univ : Finset (Fin 2048)).fold max (Ideal.ofBits .f32 0xFF800000#32) (fun q' => kscore v6 v9 v15 v25 q' j)) := by
  refine (congrFun (pay10_eq v6 v9 v15 v25) (ix2 q j)).trans ?_
  refine (exp_sub_apply _ _ _).trans (congrArg Ideal.exp (congrArg₂ (· - ·) (kscoreVec_at v6 v9 v15 v25 q j) ?_))
  refine (keepCol_apply _ q j).trans ((colMax_apply _ _ _ j).trans ?_)
  exact Finset.fold_congr fun q' _ => kscoreVec_at v6 v9 v15 v25 q' j

/-! ## The softmax over the query axis and the context's accumulation -/

/-- The attention weight: the exponential over its column's sum. -/
theorem pay1_at (v35 : FVec Ideal S2048x512 .f32) (q : Fin 2048) (j : Fin 512) :
    k0_pay1 (F := Ideal) v35 (ix2 q j) = Ideal.div (v35 (ix2 q j)) (∑ q' : Fin 2048, v35 (ix2 q' j)) := by
  unfold k0_pay1
  refine (divf_apply _ _ _).trans (congrArg (Ideal.div (v35 (ix2 q j))) ?_)
  exact (keepCol_apply _ q j).trans (colSum_apply v35 _ _ j)

/-- The weights laid out as the attention output's block. -/
theorem pay2_at (v35 : FVec Ideal S2048x512 .f32) (q : Fin 2048) (j : Fin 512) :
    k0_pay2 (F := Ideal) v35 (ix3 (0 : Fin 1) q j) = k0_pay1 (F := Ideal) v35 (ix2 q j) := by
  unfold k0_pay2
  exact shapeCast_ab_1ab_apply (k0_pay1 (F := Ideal) v35) _ 0 q j

/-- The context slab after this block: what it held plus the weights times the block's V rows. -/
theorem pay3_at (v24 : FVec Ideal S512x256 .f32) (v35 : FVec Ideal S2048x512 .f32) (v46 : Vec Ideal S1x1x2048x256 .f32)
    (q : Fin 2048) (d : Fin 256) :
    k0_pay3 (F := Ideal) v24 v35 v46 (ix4 (0 : Fin 1) (0 : Fin 1) q d)
      = v46 (ix4 (0 : Fin 1) (0 : Fin 1) q d) + ∑ j : Fin 512, k0_pay1 (F := Ideal) v35 (ix2 q j) * v24 (ix2 j d) := by
  unfold k0_pay3
  refine (shapeCast_ab_11ab_apply _ _ 0 0 q d).trans ?_
  refine (addf_apply _ _ _).trans (congrArg₂ (· + ·) (shapeCast_11ab_ab_apply v46 _ q d) ?_)
  exact matmul_plain_zero_apply _ rfl _ _ q d

end Cert.KernelIdeal.PayValue

end
-- ==== Proof.TileMath.lean ====
/-
  The kernel body's block values are the specification's functions.

  The body works on one batch entry b and, per grid step, one tile of 512 key rows: tile kt holds key rows
  512·kt … 512·kt + 511, so column j of the tile is key row col kt j = 512·kt + j. Given the blocks index by index —
  the batch entry's 2048 input rows, the tile's 512 input rows, the weights, the biases, the kept queries — each
  payload is the matching specification function: the queries are proj, the shifted exponentials are expo (the column
  maximum runs over all 2048 query rows, which one tile already holds), the weights are attn (so is the column sum),
  and the context slab gains, per tile, the tile's share ctxTile of the sum over key rows. The four shares, added in
  tile order from zero, are the whole sum ctx: 2048 = 4 · 512 and addition of extended reals is associative and
  commutative.
-/
import proofs.«125716_j44633300140321_2_alg».proof.Proof.PayloadAt
import proofs.«125716_j44633300140321_2_alg».proof.Proof.AttnSpec
import proofs.«125716_j44633300140321_2_alg».proof.Proof.KernelConsts

noncomputable section

namespace Cert.KernelIdeal.TileMath

open Idealize.ShloMosaic Idealize.ShloMosaic.ValueIdx Cert.KernelIdeal Cert.KernelIdeal.Gen Cert.KernelIdeal.PayValue Cert.AttnSpec
open Cert.KernelConsts (scale_eq)

/-- The key row that column j of tile kt is. -/
def col (kt : ℕ) (hk : kt < 4) (j : Fin 512) : Fin 2048 := ⟨512 * kt + j.val, by have := j.isLt; omega⟩

/-- A sum over the 2048 key rows is the sum over the four tiles of the sums over each tile's 512 rows. -/
theorem sum_tiles {M : Type*} [AddCommMonoid M] (f : Fin 2048 → M) :
    ∑ k : Fin 2048, f k = ∑ n : Fin 4, ∑ j : Fin 512, f (col n.val n.isLt j) := by
  show ∑ k : Fin (4 * 512), f k = _
  rw [← (finProdFinEquiv : Fin 4 × Fin 512 ≃ Fin (4 * 512)).sum_comp, Fintype.sum_prod_type]
  refine Finset.sum_congr rfl fun n _ => Finset.sum_congr rfl fun j _ => congrArg f (Fin.ext ?_)
  show j.val + 512 * n.val = 512 * n.val + j.val
  omega

section
variable (x : Act) (wq : Mat) (bq : Bias) (wk : Mat) (bk : Bias) (wv : Mat) (bv : Bias) (b : Fin 8)

/-- A linear layer of the body, on blocks that are rows of x, a weight matrix and its bias, is proj. -/
theorem linear_eq_proj (w : Mat) (c : Bias) {a : ℕ} (X : (⟨3, ![1, a, 256]⟩ : Shape).Idx → EReal) (W : Vec Ideal S256x256 .f32)
    (B : Vec Ideal S1x256 .f32) (row : Fin a → Fin 2048)
    (hX : ∀ (r : Fin a) (d : Fin 256), X (ix3 (0 : Fin 1) r d) = x (ix3 b (row r) d))
    (hW : ∀ o d : Fin 256, W (ix2 o d) = w (ix2 o d)) (hB : ∀ o : Fin 256, B (ix2 (0 : Fin 1) o) = c (ix1 o))
    (r : Fin a) (o : Fin 256) :
    (∑ d : Fin 256, X (ix3 (0 : Fin 1) r d) * W (ix2 o d)) + B (ix2 (0 : Fin 1) o) = proj x w c b (row r) o := by
  unfold proj
  exact congrArg₂ (· + ·) (Finset.sum_congr rfl fun d _ => congrArg₂ (· * ·) (hX r d) (hW o d)) (hB o)

/-- The queries of batch entry b. -/
theorem queries_at (x0 : Vec Ideal S1x2048x256 .f32) (x1 : Vec Ideal S256x256 .f32) (x2 : Vec Ideal S1x256 .f32)
    (h0 : ∀ (l : Fin 2048) (d : Fin 256), x0 (ix3 (0 : Fin 1) l d) = x (ix3 b l d))
    (h1 : ∀ (o d : Fin 256), x1 (ix2 o d) = wq (ix2 o d)) (h2 : ∀ o : Fin 256, x2 (ix2 (0 : Fin 1) o) = bq (ix1 o))
    (l : Fin 2048) (o : Fin 256) :
    k0_pay4 (F := Ideal) x0 x1 x2 (ix2 l o) = proj x wq bq b l o :=
  (pay4_at x0 x1 x2 l o).trans (linear_eq_proj x b wq bq x0 x1 x2 id h0 h1 h2 l o)

/-- The body's score of query row q against column j of tile kt is the specification's score against key row
    col kt j. -/
theorem kscore_eq_score (kt : ℕ) (hk : kt < 4) (v6 : Vec Ideal S1x512x256 .f32) (x3 : Vec Ideal S256x256 .f32)
    (x4 : Vec Ideal S1x256 .f32) (qs : Vec Ideal S2048x256 .bf16)
    (h6 : ∀ (j : Fin 512) (e : Fin 256), v6 (ix3 (0 : Fin 1) j e) = x (ix3 b (col kt hk j) e))
    (h3 : ∀ o d : Fin 256, x3 (ix2 o d) = wk (ix2 o d)) (h4 : ∀ o : Fin 256, x4 (ix2 (0 : Fin 1) o) = bk (ix1 o))
    (hq : ∀ (l : Fin 2048) (o : Fin 256), qs (ix2 l o) = proj x wq bq b l o) (q : Fin 2048) (j : Fin 512) :
    kscore v6 x3 x4 qs q j = score x wq bq wk bk b q (col kt hk j) := by
  unfold kscore score
  exact congrArg₂ (· * ·)
    (Finset.sum_congr rfl fun d _ => congrArg₂ (· * ·) (hq q d) (linear_eq_proj x b wk bk v6 x3 x4 (col kt hk) h6 h3 h4 j d))
    scale_eq

/-- The shifted exponentials of tile kt. -/
theorem expTile_at (kt : ℕ) (hk : kt < 4) (v6 : Vec Ideal S1x512x256 .f32) (x3 : Vec Ideal S256x256 .f32)
    (x4 : Vec Ideal S1x256 .f32) (qs : Vec Ideal S2048x256 .bf16)
    (h6 : ∀ (j : Fin 512) (e : Fin 256), v6 (ix3 (0 : Fin 1) j e) = x (ix3 b (col kt hk j) e))
    (h3 : ∀ o d : Fin 256, x3 (ix2 o d) = wk (ix2 o d)) (h4 : ∀ o : Fin 256, x4 (ix2 (0 : Fin 1) o) = bk (ix1 o))
    (hq : ∀ (l : Fin 2048) (o : Fin 256), qs (ix2 l o) = proj x wq bq b l o) (q : Fin 2048) (j : Fin 512) :
    k0_pay10 (F := Ideal) v6 x3 x4 qs (ix2 q j) = expo x wq bq wk bk b q (col kt hk j) := by
  have hs := kscore_eq_score x wq bq wk bk b kt hk v6 x3 x4 qs h6 h3 h4 hq
  refine (pay10_at v6 x3 x4 qs q j).trans ?_
  unfold expo colMax
  exact congrArg Ideal.exp (congrArg₂ (· - ·) (hs q j) (Finset.fold_congr fun q' _ => hs q' j))

/-- The attention weights of tile kt, before their layout as the output's block. -/
theorem weightTile_at (kt : ℕ) (hk : kt < 4) (v6 : Vec Ideal S1x512x256 .f32) (x3 : Vec Ideal S256x256 .f32)
    (x4 : Vec Ideal S1x256 .f32) (qs : Vec Ideal S2048x256 .bf16)
    (h6 : ∀ (j : Fin 512) (e : Fin 256), v6 (ix3 (0 : Fin 1) j e) = x (ix3 b (col kt hk j) e))
    (h3 : ∀ o d : Fin 256, x3 (ix2 o d) = wk (ix2 o d)) (h4 : ∀ o : Fin 256, x4 (ix2 (0 : Fin 1) o) = bk (ix1 o))
    (hq : ∀ (l : Fin 2048) (o : Fin 256), qs (ix2 l o) = proj x wq bq b l o) (q : Fin 2048) (j : Fin 512) :
    k0_pay1 (F := Ideal) (k0_pay10 (F := Ideal) v6 x3 x4 qs) (ix2 q j) = attn x wq bq wk bk b q (col kt hk j) := by
  have he := fun q' => expTile_at x wq bq wk bk b kt hk v6 x3 x4 qs h6 h3 h4 hq q' j
  refine (pay1_at _ q j).trans ?_
  unfold attn colSum
  exact congrArg₂ Ideal.div (he q) (Finset.sum_congr rfl fun q' _ => he q')

/-- The attention weights of tile kt as stored. -/
theorem attnTile_at (kt : ℕ) (hk : kt < 4) (v6 : Vec Ideal S1x512x256 .f32) (x3 : Vec Ideal S256x256 .f32)
    (x4 : Vec Ideal S1x256 .f32) (qs : Vec Ideal S2048x256 .bf16)
    (h6 : ∀ (j : Fin 512) (e : Fin 256), v6 (ix3 (0 : Fin 1) j e) = x (ix3 b (col kt hk j) e))
    (h3 : ∀ o d : Fin 256, x3 (ix2 o d) = wk (ix2 o d)) (h4 : ∀ o : Fin 256, x4 (ix2 (0 : Fin 1) o) = bk (ix1 o))
    (hq : ∀ (l : Fin 2048) (o : Fin 256), qs (ix2 l o) = proj x wq bq b l o) (q : Fin 2048) (j : Fin 512) :
    k0_pay2 (F := Ideal) (k0_pay10 (F := Ideal) v6 x3 x4 qs) (ix3 (0 : Fin 1) q j) = attn x wq bq wk bk b q (col kt hk j) :=
  (pay2_at _ q j).trans (weightTile_at x wq bq wk bk b kt hk v6 x3 x4 qs h6 h3 h4 hq q j)

/-- Tile kt's share of the context at (q, d): the sum over the tile's key rows. Past the fourth tile there is none. -/
def ctxTile (q : Fin 2048) (d : Fin 256) (kt : ℕ) : EReal :=
  if hk : kt < 4 then ∑ j : Fin 512, attn x wq bq wk bk b q (col kt hk j) * proj x wv bv b (col kt hk j) d else 0

/-- The context accumulated over the first n key tiles, in tile order. -/
def ctxPart (q : Fin 2048) (d : Fin 256) : ℕ → EReal
  | 0 => 0
  | n + 1 => ctxPart q d n + ctxTile x wq bq wk bk wv bv b q d n

/-- The context slab after tile kt: what it held plus the tile's share. -/
theorem ctxTile_at (kt : ℕ) (hk : kt < 4) (v6 : Vec Ideal S1x512x256 .f32) (x3 : Vec Ideal S256x256 .f32)
    (x4 : Vec Ideal S1x256 .f32) (qs : Vec Ideal S2048x256 .bf16)
    (h6 : ∀ (j : Fin 512) (e : Fin 256), v6 (ix3 (0 : Fin 1) j e) = x (ix3 b (col kt hk j) e))
    (h3 : ∀ o d : Fin 256, x3 (ix2 o d) = wk (ix2 o d)) (h4 : ∀ o : Fin 256, x4 (ix2 (0 : Fin 1) o) = bk (ix1 o))
    (hq : ∀ (l : Fin 2048) (o : Fin 256), qs (ix2 l o) = proj x wq bq b l o)
    (x5 : Vec Ideal S256x256 .f32) (x6 : Vec Ideal S1x256 .f32)
    (h5 : ∀ o d : Fin 256, x5 (ix2 o d) = wv (ix2 o d)) (h6' : ∀ o : Fin 256, x6 (ix2 (0 : Fin 1) o) = bv (ix1 o))
    (v46 : Vec Ideal S1x1x2048x256 .f32) (q : Fin 2048) (d : Fin 256) :
    k0_pay3 (F := Ideal) (k0_pay9 (F := Ideal) v6 x5 x6) (k0_pay10 (F := Ideal) v6 x3 x4 qs) v46 (ix4 (0 : Fin 1) (0 : Fin 1) q d)
      = v46 (ix4 (0 : Fin 1) (0 : Fin 1) q d) + ctxTile x wq bq wk bk wv bv b q d kt := by
  refine (pay3_at _ _ v46 q d).trans (congrArg (v46 (ix4 (0 : Fin 1) (0 : Fin 1) q d) + ·) ?_)
  unfold ctxTile
  rw [dif_pos hk]
  refine Finset.sum_congr rfl fun j _ => congrArg₂ (· * ·) (weightTile_at x wq bq wk bk b kt hk v6 x3 x4 qs h6 h3 h4 hq q j) ?_
  exact (pay9_at v6 x5 x6 j d).trans (linear_eq_proj x b wv bv v6 x5 x6 (col kt hk) h6 h5 h6' j d)

/-- The four tiles' shares, added in order from zero, are the context. -/
theorem ctxPart_four (q : Fin 2048) (d : Fin 256) :
    ctxPart x wq bq wk bk wv bv b q d 4 = ctx x wq bq wk bk wv bv b q d := by
  have hT : ∀ n : Fin 4, ctxTile x wq bq wk bk wv bv b q d n.val
      = ∑ j : Fin 512, attn x wq bq wk bk b q (col n.val n.isLt j) * proj x wv bv b (col n.val n.isLt j) d :=
    fun n => dif_pos n.isLt
  unfold ctx
  rw [sum_tiles fun k => attn x wq bq wk bk b q k * proj x wv bv b k d, Fin.sum_univ_four]
  show 0 + ctxTile x wq bq wk bk wv bv b q d 0 + ctxTile x wq bq wk bk wv bv b q d 1
      + ctxTile x wq bq wk bk wv bv b q d 2 + ctxTile x wq bq wk bk wv bv b q d 3 = _
  rw [zero_add]
  exact congrArg₂ (· + ·) (congrArg₂ (· + ·) (congrArg₂ (· + ·) (hT 0) (hT 1)) (hT 2)) (hT 3)

end

end Cert.KernelIdeal.TileMath

end
-- ==== Proof.PointStep.lean ====
/-
  One grid point, in terms of the specification.

  If the blocks the body is handed are batch b of x, the weights and the bias rows, and (past the first key tile) the
  scratch holds batch b's queries while the stacked block holds the queries and the context summed over the key tiles
  before this one, then after the body: the scratch and slot 0 hold the queries, slot 1 holds the context summed over
  the tiles up to this one, and the attention block holds the softmax weights of this tile's 512 key columns.
-/
import proofs.«125716_j44633300140321_2_alg».proof.Proof.Blocks
import proofs.«125716_j44633300140321_2_alg».proof.Proof.TileMath

noncomputable section

open Idealize.ShloMosaic Idealize.ShloMosaic.TcCoe Idealize.SL.Sem Idealize.ShloMosaic.ValueIdx

namespace Cert.KernelIdeal.KV

open Cert.KernelIdeal Cert.KernelIdeal.Gen Cert.KernelIdeal.PayValue Cert.KernelIdeal.TileMath Cert.AttnSpec

variable (X : Act) (WQ : Mat) (BQ : Bias) (WK : Mat) (BK : Bias) (WV : Mat) (BV : Bias) (b : Fin 8)

/-- What a point of key tile kt, batch b, leaves: stated on the stacked block o7, the attention block o8, the scratch sc. -/
structure PointInv (kt : ℕ) (hk : kt < 4) (o7 : Vec Ideal S1x2x2048x256 .f32) (o8 : Vec Ideal S1x2048x512 .f32)
    (sc : Vec Ideal S2048x256 .bf16) : Prop where
  scratch : ∀ (l : Fin 2048) (o : Fin 256), sc (ix2 l o) = proj X WQ BQ b l o
  slot0 : ∀ (l : Fin 2048) (o : Fin 256), o7 (ix4 (0 : Fin 1) (0 : Fin 2) l o) = proj X WQ BQ b l o
  slot1 : ∀ (l : Fin 2048) (d : Fin 256), o7 (ix4 (0 : Fin 1) (1 : Fin 2) l d) = ctxPart X WQ BQ WK BK WV BV b l d (kt + 1)
  weights : ∀ (q : Fin 2048) (j : Fin 512), o8 (ix3 (0 : Fin 1) q j) = attn X WQ BQ WK BK b q (col kt hk j)

/-- The tile's rows are rows 512·kt + j of batch b. -/
theorem rows_of (i : grid0.Coords) (x0 : Vec Ideal S1x2048x256 .f32) (kt : ℕ) (hk : kt < 4) (hkt : (i 1).val = kt)
    (h0 : ∀ (l : Fin 2048) (d : Fin 256), x0 (ix3 (0 : Fin 1) l d) = X (ix3 b l d)) (j : Fin 512) (e : Fin 256) :
    keyRows i x0 (ix3 (0 : Fin 1) j e) = X (ix3 b (col kt hk j) e) := by
  have hj : j.val < 512 := j.isLt
  rw [keyRows_at i x0 j e (by omega), h0]
  exact congrArg (fun r => X (ix3 b r e)) (Fin.ext (by show 512 * (i 1).val + j.val = 512 * kt + j.val; rw [hkt]))

/-- The first key tile of a batch. -/
theorem pointA (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x2x2048x256 .f32) (harg9 : arg9.IsWhole) (arg10 : Memref sig .tc .vmem S1x2048x512 .f32) (harg10 : arg10.IsWhole) (arg11 : Memref sig .tc .vmem S2048x256 .bf16) (harg11 : arg11.IsWhole) (hc0 : cond0_0 i) (x0 : Vec Ideal S1x2048x256 .f32) (x1 : Vec Ideal S256x256 .f32) (x2 : Vec Ideal S1x256 .f32) (x3 : Vec Ideal S256x256 .f32) (x4 : Vec Ideal S1x256 .f32) (x5 : Vec Ideal S256x256 .f32) (x6 : Vec Ideal S1x256 .f32)
    (hkt : (i 1).val = 0)
    (h0 : ∀ (l : Fin 2048) (d : Fin 256), x0 (ix3 (0 : Fin 1) l d) = X (ix3 b l d))
    (h1 : ∀ o d : Fin 256, x1 (ix2 o d) = WQ (ix2 o d)) (h2 : ∀ o : Fin 256, x2 (ix2 (0 : Fin 1) o) = BQ (ix1 o))
    (h3 : ∀ o d : Fin 256, x3 (ix2 o d) = WK (ix2 o d)) (h4 : ∀ o : Fin 256, x4 (ix2 (0 : Fin 1) o) = BK (ix1 o))
    (h5 : ∀ o d : Fin 256, x5 (ix2 o d) = WV (ix2 o d)) (h6 : ∀ o : Fin 256, x6 (ix2 (0 : Fin 1) o) = BV (ix1 o)) :
    PointInv X WQ BQ WK BK WV BV b 0 (by omega) (out0_A_7 (F := Ideal) c i arg2 harg2 arg3 harg3 arg4 harg4 arg5 harg5 arg6 harg6 arg7 harg7 arg8 harg8 arg9 harg9 arg10 harg10 arg11 harg11 hc0 x0 x1 x2 x3 x4 x5 x6) (out0_A_8 (F := Ideal) c i arg2 harg2 arg3 harg3 arg4 harg4 arg5 harg5 arg6 harg6 arg7 harg7 arg8 harg8 arg9 harg9 arg10 harg10 arg11 harg11 hc0 x0 x1 x2 x3 x4 x5 x6)
      (sout0_A_0 (F := Ideal) c i arg2 harg2 arg3 harg3 arg4 harg4 arg5 harg5 arg6 harg6 arg7 harg7 arg8 harg8 arg9 harg9 arg10 harg10 arg11 harg11 hc0 x0 x1 x2 x3 x4 x5 x6) := by
  have hq : ∀ (l : Fin 2048) (o : Fin 256), k0_pay7 (F := Ideal) x0 x1 x2 (ix2 l o) = proj X WQ BQ b l o := fun l o =>
    (pay7_at x0 x1 x2 l o).trans (queries_at X WQ BQ b x0 x1 x2 h0 h1 h2 l o)
  have hrows := rows_of X b i x0 0 (by omega) hkt h0
  refine ⟨fun l o => ?_, fun l o => ?_, fun l d => ?_, fun q j => ?_⟩
  · rw [scratch_A c i arg2 harg2 arg3 harg3 arg4 harg4 arg5 harg5 arg6 harg6 arg7 harg7 arg8 harg8 arg9 harg9 arg10 harg10 arg11 harg11 hc0 x0 x1 x2 x3 x4 x5 x6]; exact hq l o
  · rw [stack_A_slot0 c i arg2 harg2 arg3 harg3 arg4 harg4 arg5 harg5 arg6 harg6 arg7 harg7 arg8 harg8 arg9 harg9 arg10 harg10 arg11 harg11 hc0 x0 x1 x2 x3 x4 x5 x6 l o]
    exact (pay5_at x0 x1 x2 l o).trans (queries_at X WQ BQ b x0 x1 x2 h0 h1 h2 l o)
  · rw [stack_A_slot1 c i arg2 harg2 arg3 harg3 arg4 harg4 arg5 harg5 arg6 harg6 arg7 harg7 arg8 harg8 arg9 harg9 arg10 harg10 arg11 harg11 hc0 x0 x1 x2 x3 x4 x5 x6 l d]
    unfold valTile expTile
    rw [ctxTile_at X WQ BQ WK BK WV BV b 0 (by omega) (keyRows i x0) x3 x4 (k0_pay7 (F := Ideal) x0 x1 x2) hrows h3 h4 hq x5 x6 h5 h6
      (k0_pay6 (F := Ideal)) l d, pay6_at l d]
    rfl
  · rw [attn_A c i arg2 harg2 arg3 harg3 arg4 harg4 arg5 harg5 arg6 harg6 arg7 harg7 arg8 harg8 arg9 harg9 arg10 harg10 arg11 harg11 hc0 x0 x1 x2 x3 x4 x5 x6]
    unfold expTile
    exact attnTile_at X WQ BQ WK BK b 0 (by omega) (keyRows i x0) x3 x4 (k0_pay7 (F := Ideal) x0 x1 x2) hrows h3 h4 hq q j

/-- A later key tile of a batch. -/
theorem pointB (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x2x2048x256 .f32) (harg9 : arg9.IsWhole) (arg10 : Memref sig .tc .vmem S1x2048x512 .f32) (harg10 : arg10.IsWhole) (arg11 : Memref sig .tc .vmem S2048x256 .bf16) (harg11 : arg11.IsWhole) (hc0 : ¬cond0_0 i) (x0 : Vec Ideal S1x2048x256 .f32) (x1 : Vec Ideal S256x256 .f32) (x2 : Vec Ideal S1x256 .f32) (x3 : Vec Ideal S256x256 .f32) (x4 : Vec Ideal S1x256 .f32) (x5 : Vec Ideal S256x256 .f32) (x6 : Vec Ideal S1x256 .f32) (xo7 : Vec Ideal S1x2x2048x256 .f32) (xs0 : Vec Ideal S2048x256 .bf16)
    (kt : ℕ) (hk : kt < 4) (hkt : (i 1).val = kt)
    (h0 : ∀ (l : Fin 2048) (d : Fin 256), x0 (ix3 (0 : Fin 1) l d) = X (ix3 b l d))
    (h3 : ∀ o d : Fin 256, x3 (ix2 o d) = WK (ix2 o d)) (h4 : ∀ o : Fin 256, x4 (ix2 (0 : Fin 1) o) = BK (ix1 o))
    (h5 : ∀ o d : Fin 256, x5 (ix2 o d) = WV (ix2 o d)) (h6 : ∀ o : Fin 256, x6 (ix2 (0 : Fin 1) o) = BV (ix1 o))
    (hs : ∀ (l : Fin 2048) (o : Fin 256), xs0 (ix2 l o) = proj X WQ BQ b l o)
    (ho0 : ∀ (l : Fin 2048) (o : Fin 256), xo7 (ix4 (0 : Fin 1) (0 : Fin 2) l o) = proj X WQ BQ b l o)
    (ho1 : ∀ (l : Fin 2048) (d : Fin 256), xo7 (ix4 (0 : Fin 1) (1 : Fin 2) l d) = ctxPart X WQ BQ WK BK WV BV b l d kt) :
    PointInv X WQ BQ WK BK WV BV b kt hk (out0_B_7 (F := Ideal) c i arg2 harg2 arg3 harg3 arg4 harg4 arg5 harg5 arg6 harg6 arg7 harg7 arg8 harg8 arg9 harg9 arg10 harg10 arg11 harg11 hc0 x0 x1 x2 x3 x4 x5 x6 xo7 xs0) (out0_B_8 (F := Ideal) c i arg2 harg2 arg3 harg3 arg4 harg4 arg5 harg5 arg6 harg6 arg7 harg7 arg8 harg8 arg9 harg9 arg10 harg10 arg11 harg11 hc0 x0 x1 x2 x3 x4 x5 x6 xo7 xs0)
      (sout0_B_0 (F := Ideal) c i arg2 harg2 arg3 harg3 arg4 harg4 arg5 harg5 arg6 harg6 arg7 harg7 arg8 harg8 arg9 harg9 arg10 harg10 arg11 harg11 hc0 x0 x1 x2 x3 x4 x5 x6 xo7 xs0) := by
  have hrows := rows_of X b i x0 kt hk hkt h0
  refine ⟨fun l o => hs l o, fun l o => ?_, fun l d => ?_, fun q j => ?_⟩
  · rw [stack_B_slot0 c i arg2 harg2 arg3 harg3 arg4 harg4 arg5 harg5 arg6 harg6 arg7 harg7 arg8 harg8 arg9 harg9 arg10 harg10 arg11 harg11 hc0 x0 x1 x2 x3 x4 x5 x6 xo7 xs0 l o]; exact ho0 l o
  · rw [stack_B_slot1 c i arg2 harg2 arg3 harg3 arg4 harg4 arg5 harg5 arg6 harg6 arg7 harg7 arg8 harg8 arg9 harg9 arg10 harg10 arg11 harg11 hc0 x0 x1 x2 x3 x4 x5 x6 xo7 xs0 l d]
    unfold valTile expTile
    rw [ctxTile_at X WQ BQ WK BK WV BV b kt hk (keyRows i x0) x3 x4 xs0 hrows h3 h4 hs x5 x6 h5 h6 (View.ld xo7 slot1) l d]
    have e : View.ld xo7 slot1 (ix4 (0 : Fin 1) (0 : Fin 1) l d) = xo7 (ix4 (0 : Fin 1) (1 : Fin 2) l d) :=
      congrArg xo7 (emb_slot1 l d)
    rw [e, ho1 l d]
    rfl
  · rw [attn_B c i arg2 harg2 arg3 harg3 arg4 harg4 arg5 harg5 arg6 harg6 arg7 harg7 arg8 harg8 arg9 harg9 arg10 harg10 arg11 harg11 hc0 x0 x1 x2 x3 x4 x5 x6 xo7 xs0]
    unfold expTile
    exact attnTile_at X WQ BQ WK BK b kt hk (keyRows i x0) x3 x4 xs0 hrows h3 h4 hs q j

end Cert.KernelIdeal.KV

end
-- ==== Proof.GridInv.lean ====
/-
  All thirty-two grid points, by induction on the point.

  After the body at point t = 4·b + kt: the scratch and slot 0 of the stacked block hold batch b's queries, slot 1 holds
  batch b's context summed over key tiles 0 … kt, and the attention block holds the softmax weights of tile kt's key
  columns. At kt = 0 this is what the body computes from the argument blocks alone; at kt > 0 it follows from the same
  facts one point earlier (same batch, tile kt - 1), because the stacked block and the scratch are carried over.
-/
import proofs.«125716_j44633300140321_2_alg».proof.Proof.PointStep

noncomputable section

open Idealize.ShloMosaic Idealize.ShloMosaic.TcCoe Idealize.SL.Sem Idealize.ShloMosaic.ValueIdx

namespace Cert.KernelIdeal.KV

open Cert.KernelIdeal Cert.KernelIdeal.Gen Cert.KernelIdeal.TileMath Cert.AttnSpec

variable (m : (ℓ : Loc nD τ sig) → Buf (Elt Ideal) ℓ) (c : Dev nD)

theorem coord1 (t : Fin cfg0.N) : (grid0.coords t (1 : Fin 2)).val = t.val % 4 := by
  have h := idx_facts t
  exact h.2.2.2.2.2.2.2.2.2.2.2.2.2.2.2.2.2.2.2.2.2.2.2

/-- A point that opens a batch. -/
theorem inv_A (t : Fin cfg0.N) (h0 : t.val % 4 = 0) (kt : ℕ) (hk : kt < 4) (hkt : kt = t.val % 4) :
    PointInv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (batchOf t) kt hk
      (outsAt0 m c t.val t.isLt).1 (outsAt0 m c t.val t.isLt).2.1 (outsAt0 m c t.val t.isLt).2.2 := by
  have hk0 : kt = 0 := by omega
  subst hk0
  rw [outsAt0_A m c t h0]
  dsimp only
  exact pointA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (batchOf t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) ((hcond0_0 t).mpr h0) (iblk m c 0 t) (iblk m c 1 t) (iblk m c 2 t) (iblk m c 3 t) (iblk m c 4 t) (iblk m c 5 t) (iblk m c 6 t)
    (by rw [coord1 t]; exact h0) (iblk0_at m c t) (iblk1_at m c t) (iblk2_at m c t) (iblk3_at m c t) (iblk4_at m c t)
    (iblk5_at m c t) (iblk6_at m c t)

/-- Every point. -/
theorem inv_aux : ∀ (n : ℕ) (t : Fin cfg0.N), t.val = n → ∀ (kt : ℕ) (hk : kt < 4), kt = t.val % 4 →
    PointInv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (batchOf t) kt hk
      (outsAt0 m c t.val t.isLt).1 (outsAt0 m c t.val t.isLt).2.1 (outsAt0 m c t.val t.isLt).2.2 := by
  intro n
  induction n with
  | zero =>
    intro t ht kt hk hkt
    exact inv_A m c t (by rw [ht]) kt hk hkt
  | succ n ih =>
    intro t ht kt hk hkt
    by_cases h0 : t.val % 4 = 0
    · exact inv_A m c t h0 kt hk hkt
    · have hN := lt32 t
      have hlt : t.val - 1 < cfg0.N := Nat.lt_of_le_of_lt (Nat.sub_le _ _) t.isLt
      have ih' := ih ⟨t.val - 1, hlt⟩ (by show t.val - 1 = n; omega) ((t.val - 1) % 4) (Nat.mod_lt _ (by decide)) rfl
      have hb : batchOf ⟨t.val - 1, hlt⟩ = batchOf t := Fin.ext (by show (t.val - 1) / 4 = t.val / 4; omega)
      have hkt' : (t.val - 1) % 4 + 1 = kt := by omega
      rw [outsAt0_B m c t h0]
      dsimp only
      exact pointB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (batchOf t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) (fun h => h0 ((hcond0_0 t).mp h)) (iblk m c 0 t) (iblk m c 1 t) (iblk m c 2 t) (iblk m c 3 t) (iblk m c 4 t) (iblk m c 5 t) (iblk m c 6 t)
        (outsAt0 m c (t.val - 1) (Nat.lt_of_le_of_lt (Nat.sub_le _ _) t.isLt)).1
        (outsAt0 m c (t.val - 1) (Nat.lt_of_le_of_lt (Nat.sub_le _ _) t.isLt)).2.2
        kt hk (by rw [coord1 t]; exact hkt.symm) (iblk0_at m c t) (iblk3_at m c t) (iblk4_at m c t) (iblk5_at m c t) (iblk6_at m c t)
        (fun l o => by rw [← hb]; exact ih'.scratch l o) (fun l o => by rw [← hb]; exact ih'.slot0 l o)
        (fun l d => by rw [← hb, ← hkt']; exact ih'.slot1 l d)

theorem inv (t : Fin cfg0.N) :
    PointInv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (batchOf t) (t.val % 4) (Nat.mod_lt _ (by decide))
      (outsAt0 m c t.val t.isLt).1 (outsAt0 m c t.val t.isLt).2.1 (outsAt0 m c t.val t.isLt).2.2 :=
  inv_aux m c t.val t rfl _ _ rfl

end Cert.KernelIdeal.KV

end
-- ==== Proof.FinalArrays.lean ====
/-
  The kernel's two result arrays after the run.

  The attention array [8, 2048, 2048] is written back block by block: point t = 4·b + kt writes batch b's key columns
  512·kt … 512·kt + 511, and the 32 blocks tile the array. The stacked array [8, 2, 2048, 256] is written back once per
  batch, after its last key tile, when slot 1 holds the context summed over all four tiles: the whole context. The
  program then views the stacked array as [8, 4096, 256] (a reshape): row r < 2048 of batch n is query row r, row
  r ≥ 2048 is context row r - 2048.
-/
import proofs.«125716_j44633300140321_2_alg».proof.Proof.GridInv

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.KernelIdeal.TileMath Cert.AttnSpec

variable (m : (ℓ : Loc nD τ sig) → Buf (Elt Ideal) ℓ) (ρ : Dev nD → PrngReg) (c : Dev nD)

theorem stacked_slot0 (x : Act) (wq : Mat) (bq : Bias) (wk : Mat) (bk : Bias) (wv : Mat) (bv : Bias) (n : Fin 8) (l : Fin 2048) (d : Fin 256) :
    stacked x wq bq wk bk wv bv (ix4 n (0 : Fin 2) l d) = proj x wq bq n l d := by
  unfold stacked; exact if_pos rfl

theorem stacked_slot1 (x : Act) (wq : Mat) (bq : Bias) (wk : Mat) (bk : Bias) (wv : Mat) (bv : Bias) (n : Fin 8) (l : Fin 2048) (d : Fin 256) :
    stacked x wq bq wk bk wv bv (ix4 n (1 : Fin 2) l d) = ctx x wq bq wk bk wv bv n l d := by
  unfold stacked; exact if_neg (show ¬((1 : Fin 2).val = 0) by decide)

/-- The specification's two arrays at this memory's arguments. -/
abbrev stackedArr : Buf (Elt Ideal) ((c.tc : Thread nD τ).loc main_v3_0) := stacked (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
abbrev attnArr : Buf (Elt Ideal) ((c.tc : Thread nD τ).loc main_v3_1) := attnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-! ## The attention array -/

theorem emb8 (t : Fin cfg0.N) (q : Fin 2048) (j : Fin 512) :
    ((cfg0.win 8).blk t).view.emb (ix3 (0 : Fin 1) q j) = ix3 (batchOf t) q (col (t.val % 4) (Nat.mod_lt _ (by decide)) j) := by
  funext a; apply Fin.ext
  have hf := idx_facts t
  match a with
  | ⟨0, _⟩ => show win0_8.index t (0 : Fin 3) * 1 + 1 * 0 = t.val / 4; omega
  | ⟨1, _⟩ => show win0_8.index t (1 : Fin 3) * 2048 + 1 * q.val = q.val; omega
  | ⟨2, _⟩ => show win0_8.index t (2 : Fin 3) * 512 + 1 * j.val = 512 * (t.val % 4) + j.val; omega

/-- What point t writes back into the attention array is its block of the specification. -/
theorem flushed8_eq (t : Fin cfg0.N) (hf : (cfg0.win 8).flush t = true) :
    (dats m 0 c).flushed 8 t = ((cfg0.win 8).blk t).view.read (Elt Ideal) (attnArr m c) := by
  have I := inv m c t
  show (cfg0.win 8).cut (grid0.coords t) ((dats m 0 c).after 8 t) = _
  rw [after0_8]
  funext j
  obtain ⟨z, q, k, rfl⟩ : ∃ (z : Fin 1) (q : Fin 2048) (k : Fin 512), j = ix3 z q k := ⟨j 0, j 1, j 2, eq_ix3 j⟩
  obtain rfl : z = 0 := Subsingleton.elim _ _
  rw [View.read_apply]
  show (outsAt0 m c t.val t.isLt).2.1 (ix3 (0 : Fin 1) q k) = attnArr m c (((cfg0.win 8).blk t).view.emb (ix3 (0 : Fin 1) q k))
  rw [emb8 t q k]
  exact I.weights q k

theorem mem_blk8 (t : Fin cfg0.N) (i : S8x2048x2048.Idx) :
    i ∈ ((cfg0.win 8).blk t).view.set ↔ ∀ a : Fin 3, win0_8.index t a * S1x2048x512.size a ≤ (i a).val ∧ (i a).val < win0_8.index t a * S1x2048x512.size a + S1x2048x512.size a := by
  show i ∈ ((View.whole main_v3_1).slice (win0_8.rect t)).set ↔ _
  rw [View.set_slice_whole, Rect.mem_set_unit]
  exact Iff.rfl

theorem final8 : (dats m 0 c).arrAt 8 cfg0.N = attnArr m c :=
  (dats m 0 c).arrAt_eq_of_cover 8 (attnArr m c) (flushed8_eq m c) fun i => by
    have h0 : (i 0).val < 8 := (i 0).isLt
    have h1 : (i 1).val < 2048 := (i 1).isLt
    have h2 : (i 2).val < 2048 := (i 2).isLt
    have hN : cfg0.N = 32 := N_0
    refine ⟨⟨4 * (i 0).val + (i 2).val / 512, by omega⟩, flush0_8 _, ?_⟩
    rw [mem_blk8]
    have hf := idx_facts ⟨4 * (i 0).val + (i 2).val / 512, by omega⟩
    intro a
    match a with
    | ⟨0, _⟩ => show win0_8.index _ (0 : Fin 3) * 1 ≤ (i 0).val ∧ (i 0).val < win0_8.index _ (0 : Fin 3) * 1 + 1; dsimp only at hf; omega
    | ⟨1, _⟩ => show win0_8.index _ (1 : Fin 3) * 2048 ≤ (i 1).val ∧ (i 1).val < win0_8.index _ (1 : Fin 3) * 2048 + 2048; dsimp only at hf; omega
    | ⟨2, _⟩ => show win0_8.index _ (2 : Fin 3) * 512 ≤ (i 2).val ∧ (i 2).val < win0_8.index _ (2 : Fin 3) * 512 + 512; dsimp only at hf; omega

/-! ## The stacked array -/

theorem emb7 (t : Fin cfg0.N) (s : Fin 2) (l : Fin 2048) (d : Fin 256) :
    ((cfg0.win 7).blk t).view.emb (ix4 (0 : Fin 1) s l d) = ix4 (batchOf t) s l d := by
  funext a; apply Fin.ext
  have hf := idx_facts t
  match a with
  | ⟨0, _⟩ => show win0_7.index t (0 : Fin 4) * 1 + 1 * 0 = t.val / 4; omega
  | ⟨1, _⟩ => show win0_7.index t (1 : Fin 4) * 2 + 1 * s.val = s.val; omega
  | ⟨2, _⟩ => show win0_7.index t (2 : Fin 4) * 2048 + 1 * l.val = l.val; omega
  | ⟨3, _⟩ => show win0_7.index t (3 : Fin 4) * 256 + 1 * d.val = d.val; omega

/-- What a batch's last point writes back into the stacked array is its block of the specification. -/
theorem flushed7_eq (t : Fin cfg0.N) (hf : (cfg0.win 7).flush t = true) :
    (dats m 0 c).flushed 7 t = ((cfg0.win 7).blk t).view.read (Elt Ideal) (stackedArr m c) := by
  have h3 : t.val % 4 = 3 := (flush0_7 t).mp hf
  have I := inv m c t
  show (cfg0.win 7).cut (grid0.coords t) ((dats m 0 c).after 7 t) = _
  rw [after0_7]
  funext j
  obtain ⟨z, s, l, d, rfl⟩ : ∃ (z : Fin 1) (s : Fin 2) (l : Fin 2048) (d : Fin 256), j = ix4 z s l d := ⟨j 0, j 1, j 2, j 3, eq_ix4 j⟩
  obtain rfl : z = 0 := Subsingleton.elim _ _
  rw [View.read_apply]
  show (outsAt0 m c t.val t.isLt).1 (ix4 (0 : Fin 1) s l d) = stackedArr m c (((cfg0.win 7).blk t).view.emb (ix4 (0 : Fin 1) s l d))
  rw [emb7 t s l d]
  have hs : s = 0 ∨ s = 1 := by
    have := s.isLt
    rcases s with ⟨_ | _ | n, hn⟩
    · exact Or.inl rfl
    · exact Or.inr rfl
    · omega
  rcases hs with rfl | rfl
  · exact (I.slot0 l d).trans (stacked_slot0 _ _ _ _ _ _ _ _ l d).symm
  · have e := I.slot1 l d
    rw [h3] at e
    exact e.trans ((ctxPart_four _ _ _ _ _ _ _ _ l d).trans (stacked_slot1 _ _ _ _ _ _ _ _ l d).symm)

theorem mem_blk7 (t : Fin cfg0.N) (i : S8x2x2048x256.Idx) :
    i ∈ ((cfg0.win 7).blk t).view.set ↔ ∀ a : Fin 4, win0_7.index t a * S1x2x2048x256.size a ≤ (i a).val ∧ (i a).val < win0_7.index t a * S1x2x2048x256.size a + S1x2x2048x256.size a := by
  show i ∈ ((View.whole main_v3_0).slice (win0_7.rect t)).set ↔ _
  rw [View.set_slice_whole, Rect.mem_set_unit]
  exact Iff.rfl

theorem final7 : (dats m 0 c).arrAt 7 cfg0.N = stackedArr m c :=
  (dats m 0 c).arrAt_eq_of_cover 7 (stackedArr m c) (flushed7_eq m c) fun i => by
    have h0 : (i 0).val < 8 := (i 0).isLt
    have h1 : (i 1).val < 2 := (i 1).isLt
    have h2 : (i 2).val < 2048 := (i 2).isLt
    have h3 : (i 3).val < 256 := (i 3).isLt
    have hN : cfg0.N = 32 := N_0
    refine ⟨⟨4 * (i 0).val + 3, by omega⟩, (flush0_7 _).mpr (by show (4 * (i 0).val + 3) % 4 = 3; omega), ?_⟩
    rw [mem_blk7]
    have hf := idx_facts ⟨4 * (i 0).val + 3, by omega⟩
    intro a
    match a with
    | ⟨0, _⟩ => show win0_7.index _ (0 : Fin 4) * 1 ≤ (i 0).val ∧ (i 0).val < win0_7.index _ (0 : Fin 4) * 1 + 1; dsimp only at hf; omega
    | ⟨1, _⟩ => show win0_7.index _ (1 : Fin 4) * 2 ≤ (i 1).val ∧ (i 1).val < win0_7.index _ (1 : Fin 4) * 2 + 2; dsimp only at hf; omega
    | ⟨2, _⟩ => show win0_7.index _ (2 : Fin 4) * 2048 ≤ (i 2).val ∧ (i 2).val < win0_7.index _ (2 : Fin 4) * 2048 + 2048; dsimp only at hf; omega
    | ⟨3, _⟩ => show win0_7.index _ (3 : Fin 4) * 256 ≤ (i 3).val ∧ (i 3).val < win0_7.index _ (3 : Fin 4) * 256 + 256; dsimp only at hf; omega

end Cert.KernelIdeal.KV

end
-- ==== Proof.KernelRun.lean ====
/-
  The kernel's run, read: every weakly fair execution ends with the [8, 4096, 256] result at the specification's
  `joined` and the [8, 2048, 2048] result at its `attnOut`, of the argument arrays, which end unchanged.
-/
import proofs.«125716_j44633300140321_2_alg».proof.Proof.FinalArrays
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.KernelIdeal.TileMath Cert.AttnSpec

variable (m : (ℓ : Loc nD τ sig) → Buf (Elt Ideal) ℓ) (ρ : Dev nD → PrngReg) (c : Dev nD)

/-- Row r of the [8, 4096, 256] view is row r mod 2048 of slot r div 2048 of the stacked array: the two layouts have the
    same row-major order. -/
theorem joined_of_stacked (x : Act) (wq : Mat) (bq : Bias) (wk : Mat) (bk : Bias) (wv : Mat) (bv : Bias) (i : S8x4096x256.Idx) :
    shapeCast S8x4096x256 (stacked x wq bq wk bk wv bv) shapeCasts_S8x2x2048x256_S8x4096x256 i = joined x wq bq wk bk wv bv i := by
  obtain ⟨n, r, d, rfl⟩ : ∃ (n : Fin 8) (r : Fin 4096) (d : Fin 256), i = ix3 n r d := ⟨i 0, i 1, i 2, eq_ix3 i⟩
  have hr4 : r.val < 4096 := r.isLt
  have hd : d.val < 256 := d.isLt
  by_cases hr : r.val < 2048
  · rw [shapeCast_apply (stacked x wq bq wk bk wv bv) shapeCasts_S8x2x2048x256_S8x4096x256 (ix3 n r d)
      (ix4 n (0 : Fin 2) (⟨r.val, hr⟩ : Fin 2048) d) (by
        rw [Shape.rowMajor_val_four, Shape.rowMajor_val_three]
        show ((n.val * 2 + 0) * 2048 + r.val) * 256 + d.val = (n.val * 4096 + r.val) * 256 + d.val
        omega), stacked_slot0]
    unfold joined
    have hr' : (ix3 n r d (1 : Fin 3)).val < 2048 := hr
    rw [dif_pos hr']
  · rw [shapeCast_apply (stacked x wq bq wk bk wv bv) shapeCasts_S8x2x2048x256_S8x4096x256 (ix3 n r d)
      (ix4 n (1 : Fin 2) (⟨r.val - 2048, by omega⟩ : Fin 2048) d) (by
        rw [Shape.rowMajor_val_four, Shape.rowMajor_val_three]
        show ((n.val * 2 + 1) * 2048 + (r.val - 2048)) * 256 + d.val = (n.val * 4096 + r.val) * 256 + d.val
        omega), stacked_slot1]
    unfold joined
    have hr' : ¬(ix3 n r d (1 : Fin 3)).val < 2048 := hr
    rw [dif_neg hr']

/-- The reshape after the call, applied to the stacked array the call leaves. -/
theorem tail_eq : Pipeline.afterTail₀ cfgs (dats m) 0 (V0 m) [hostOps1] c main_v4 = joined (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3_0)
      = stackedArr m c :=
    (Pipeline.withArrays_arr spec0 launch0.win.arr_inj c _ _ 7).trans (final7 m c)
  rw [e]
  funext i
  exact joined_of_stacked _ _ _ _ _ _ _ i

/-- THE RUN: both results at the specification, the arguments unchanged. -/
theorem run : θ_run defs (onTc (τ := τ) (main (F := Ideal))) ⟨m, fun _ => 0, ρ⟩ fun r => ∀ c : Dev nD,
      r.2.mem ((c.tc : Thread nD τ).loc main_v4) = joined (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v3_1) = attnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨
      ((h c).2 main_v4 (Pipeline.mem_restRefs_of main_v4 (by decide) (by decide))).trans (tail_eq m c),
      ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.KernelIdeal.KV

end
-- ==== Proof.lean ====
/-
  The certificate's five claims for the attention encoder.

  Both idealized programs are proved to end at ONE pair of functions of the argument arrays (Proof/AttnSpec.lean): the
  linear layers Q, K, V; the scores Q·Kᵀ scaled by 1/16; a softmax over the QUERY axis; the context A·V; Q stacked over
  the context, and the attention weights. On the kernel's side (Proof/KernelRun.lean) the two result arrays are read
  off the frame run: thirty-two grid points, four key tiles per batch, the queries carried in a scratch buffer and the
  context accumulated tile by tile in the resident output block — over the extended reals the accumulated tile sums are
  the whole sum, in any order. On the reference's side (Proof/RefIsSpec.lean) the program's operations are read one at
  a time at an index; its divisor 256 ^ (1/2) is 16, the kernel's factor 0.0625 is 1/16, and dividing by 16 is
  multiplying by 1/16 on every extended real. No precondition is used beyond the frames': the laws involved
  (commutativity and associativity of the sum, the two scalings) hold at the infinities too. The idealization rewrote
  nothing, so `preserves` is trivial.
-/
import proofs.«125716_j44633300140321_2_alg».proof.Defs
import proofs.«125716_j44633300140321_2_alg».proof.Proof.Gen.Kernel
import proofs.«125716_j44633300140321_2_alg».proof.Proof.Gen.Kernel.Skeleton
import proofs.«125716_j44633300140321_2_alg».proof.Proof.Gen.Kernel.Launch
import proofs.«125716_j44633300140321_2_alg».proof.Proof.Gen.Kernel.Points
import proofs.«125716_j44633300140321_2_alg».proof.Proof.Gen.Kernel.Frame
import proofs.«125716_j44633300140321_2_alg».proof.Proof.Gen.KernelIdeal
import proofs.«125716_j44633300140321_2_alg».proof.Proof.Gen.KernelIdeal.Skeleton
import proofs.«125716_j44633300140321_2_alg».proof.Proof.Gen.KernelIdeal.Launch
import proofs.«125716_j44633300140321_2_alg».proof.Proof.Gen.KernelIdeal.Points
import proofs.«125716_j44633300140321_2_alg».proof.Proof.Gen.KernelIdeal.Frame
import proofs.«125716_j44633300140321_2_alg».proof.Proof.Gen.ReferenceIdeal
import proofs.«125716_j44633300140321_2_alg».proof.Proof.Gen.Pre_finite_inputs
import proofs.«125716_j44633300140321_2_alg».proof.Proof.RefRun
import proofs.«125716_j44633300140321_2_alg».proof.Proof.RefRead
import proofs.«125716_j44633300140321_2_alg».proof.Proof.AttnSpec
import proofs.«125716_j44633300140321_2_alg».proof.Proof.RefIsSpec
import proofs.«125716_j44633300140321_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both runs end at the specification's two arrays of arguments that agree. -/
theorem algebraic : Cert.algebraic_KernelIdeal_ReferenceIdeal := by
  intro m ρ m' ρ' _ hagree
  refine ⟨fun c => Cert.AttnSpec.joined (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.AttnSpec.attnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KV.run m ρ, ?_⟩
  refine (θ_run Cert.ReferenceIdeal.defs _ _).mono (fun _ h c => ⟨?_, ?_, (h c).2.2⟩)
    (Cert.ReferenceIdeal.ValueP.run (F := Ideal) m' ρ')
  · rw [(h c).1, Cert.ReferenceIdeal.ReadP.val_main_v28_eq, Cert.ReferenceIdeal.RefValue.joined_eq,
      (hagree c).1, (hagree c).2.1, (hagree c).2.2.1, (hagree c).2.2.2.1, (hagree c).2.2.2.2.1, (hagree c).2.2.2.2.2.1,
      (hagree c).2.2.2.2.2.2]
  · rw [(h c).2.1, Cert.ReferenceIdeal.ReadP.val_main_v26_eq, Cert.ReferenceIdeal.RefValue.attn_eq,
      (hagree c).1, (hagree c).2.1, (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
